-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x32x64 : Shape := ⟨3, ![100000, 32, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x32x64 : S_.BroadcastsInDim S100000x32x64 (![] : Fin 0 → Fin S100000x32x64.rank)
  reducesTo_S100000x32x64_S_d0_1_2 : S100000x32x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S64x64 .f32) (main_arg8 : FVec F S64x64 .f32) (main_arg9 : FVec F S64 .f32) (main_arg10 : FVec F S1x64 .f32) (main_arg11 : FVec F S1 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S1x64 .f32 := Host.absf main_arg10
  let main_cst_18 : FVec F S_ .f32 := constant S_ .f32 0x7F800000#32
  let main_v50 : FVec F S1x64 .f32 := broadcastInDim S1x64 ![] bcast_S_S1x64 main_cst_18
  fn_part3 (F := F) main_arg11 main_v48 main_v49 main_v50

def fn_part1 {F : FTy → Type} [FloatOps F] (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S1x64 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x64 .f32) (main_arg1 : FVec F S100000x32x64 .f32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S1x64 .f32) (main_arg11 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x32x64 .f32 := Host.absf main_arg1
  let main_cst_0 : FVec F S_ .f32 := constant S_ .f32 0x7F800000#32
  let main_v5 : FVec F S100000x32x64 .f32 := broadcastInDim S100000x32x64 ![] bcast_S_S100000x32x64 main_cst_0
  let main_v6 : IVec S100000x32x64 1 := cmpf .olt main_v4 main_v5
  let main_c_1 : IVec S_ 1 := constantI S_ 1 1#1
  let main_v7 : IVec S_ 1 := (fun x v => Host.reduce IntOp.andi x v reducesTo_S100000x32x64_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S100000x64 : Shape := ⟨2, ![100000, 64]⟩
abbrev S100000x32x64 : Shape := ⟨3, ![100000, 32, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S100000x16x128 : Shape := ⟨3, ![100000, 16, 128]⟩
abbrev S_ : Shape := ⟨0, ![]⟩
abbrev S64x128 : Shape := ⟨2, ![64, 128]⟩
abbrev S128x128 : Shape := ⟨2, ![128, 128]⟩
abbrev S128 : Shape := ⟨1, ![128]⟩
abbrev S1x128 : Shape := ⟨2, ![1, 128]⟩
abbrev S125x8x64 : Shape := ⟨3, ![125, 8, 64]⟩
abbrev S800x64 : Shape := ⟨2, ![800, 64]⟩
abbrev S800x16x128 : Shape := ⟨3, ![800, 16, 128]⟩
abbrev S1x8x64 : Shape := ⟨3, ![1, 8, 64]⟩
abbrev S12800x128 : Shape := ⟨2, ![12800, 128]⟩
abbrev S800x128 : Shape := ⟨2, ![800, 128]⟩
abbrev S800 : Shape := ⟨1, ![800]⟩
abbrev S800x1 : Shape := ⟨2, ![800, 1]⟩
abbrev S1x1x64 : Shape := ⟨3, ![1, 1, 64]⟩
abbrev S125x1x64 : Shape := ⟨3, ![125, 1, 64]⟩
abbrev S125x64 : Shape := ⟨2, ![125, 64]⟩
abbrev S1x1 : Shape := ⟨2, ![1, 1]⟩
abbrev S64x1 : Shape := ⟨2, ![64, 1]⟩

abbrev nBuf : Space → Nat
  | .hbm => 61
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S100000x32x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S1x64, .f32⟩
  | .hbm, ⟨11, _⟩ => ⟨S1, .f32⟩
  | .hbm, ⟨12, _⟩ => ⟨S100000x16x128, .f32⟩
  | .hbm, ⟨13, _⟩ => ⟨S64x64, .f32⟩
  | .hbm, ⟨14, _⟩ => ⟨S_, .f32⟩
  | .hbm, ⟨15, _⟩ => ⟨S64x64, .f32⟩
  | .hbm, ⟨16, _⟩ => ⟨S64x128, .f32⟩
  | .hbm, ⟨17, _⟩ => ⟨S64x128, .f32⟩
  | .hbm, ⟨18, _⟩ => ⟨S128x128, .f32⟩
  | .hbm, ⟨19, _⟩ => ⟨S128, .f32⟩
  | .hbm, ⟨20, _⟩ => ⟨S1x128, .f32⟩
  | .hbm, ⟨21, _⟩ => ⟨S1x64, .f32⟩
  | .hbm, ⟨22, _⟩ => ⟨S64x64, .f32⟩
  | .hbm, ⟨23, _⟩ => ⟨S64x64, .f32⟩
  | .hbm, ⟨24, _⟩ => ⟨S1x64, .f32⟩
  | .hbm, ⟨25, _⟩ => ⟨S125x8x64, .f32⟩
  | .hbm, ⟨26, _⟩ => ⟨S125x1x64, .f32⟩
  | .hbm, ⟨27, _⟩ => ⟨S125x64, .f32⟩
  | .hbm, ⟨28, _⟩ => ⟨S_, .f32⟩
  | .hbm, ⟨29, _⟩ => ⟨S64, .f32⟩
  | .hbm, ⟨30, _⟩ => ⟨S1x64, .f32⟩
  | .hbm, ⟨31, _⟩ => ⟨S64x64, .f32⟩
  | .hbm, ⟨32, _⟩ => ⟨S1x64, .f32⟩
  | .hbm, ⟨33, _⟩ => ⟨S_, .f32⟩
  | .hbm, ⟨34, _⟩ => ⟨S1x64, .f32⟩
  | .hbm, ⟨35, _⟩ => ⟨S1x64, .f32⟩
  | .hbm, ⟨36, _⟩ => ⟨S1x64, .f32⟩
  | .hbm, ⟨37, _⟩ => ⟨S_, .f32⟩
  | .hbm, ⟨38, _⟩ => ⟨S1, .f32⟩
  | .hbm, ⟨39, _⟩ => ⟨S1x1, .f32⟩
  | .hbm, ⟨40, _⟩ => ⟨S1x1, .f32⟩
  | .hbm, ⟨41, _⟩ => ⟨S_, .f32⟩
  | .hbm, ⟨42, _⟩ => ⟨S1x1, .f32⟩
  | .hbm, ⟨43, _⟩ => ⟨S1x1, .i1⟩
  | .hbm, ⟨44, _⟩ => ⟨S_, .f32⟩
  | .hbm, ⟨45, _⟩ => ⟨S_, .f32⟩
  | .hbm, ⟨46, _⟩ => ⟨S1x1, .f32⟩
  | .hbm, ⟨47, _⟩ => ⟨S1x1, .f32⟩
  | .hbm, ⟨48, _⟩ => ⟨S1x64, .f32⟩
  | .hbm, ⟨49, _⟩ => ⟨S1x64, .f32⟩
  | .hbm, ⟨50, _⟩ => ⟨S64x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S_, .f32⟩
  | .hbm, ⟨55, _⟩ => ⟨S1x64, .f32⟩
  | .hbm, ⟨56, _⟩ => ⟨S1x64, .f32⟩
  | .hbm, ⟨57, _⟩ => ⟨S64x1, .f32⟩
  | .hbm, ⟨58, _⟩ => ⟨S1x1, .f32⟩
  | .hbm, ⟨59, _⟩ => ⟨S1x1, .f32⟩
  | .hbm, ⟨60, _⟩ => ⟨S1x1, .f32⟩
  | .local _ .vmem, ⟨0, _⟩ => ⟨S800x64, .f32⟩
  | .local _ .vmem, ⟨1, _⟩ => ⟨S800x64, .f32⟩
  | .local _ .vmem, ⟨2, _⟩ => ⟨S800x16x128, .f32⟩
  | .local _ .vmem, ⟨3, _⟩ => ⟨S800x16x128, .f32⟩
  | .local _ .vmem, ⟨4, _⟩ => ⟨S64x64, .f32⟩
  | .local _ .vmem, ⟨5, _⟩ => ⟨S1x64, .f32⟩
  | .local _ .vmem, ⟨6, _⟩ => ⟨S128x128, .f32⟩
  | .local _ .vmem, ⟨7, _⟩ => ⟨S1x128, .f32⟩
  | .local _ .vmem, ⟨8, _⟩ => ⟨S64x64, .f32⟩
  | .local _ .vmem, ⟨9, _⟩ => ⟨S64x64, .f32⟩
  | .local _ .vmem, ⟨10, _⟩ => ⟨S1x64, .f32⟩
  | .local _ .vmem, ⟨11, _⟩ => ⟨S1x8x64, .f32⟩
  | .local _ .vmem, ⟨12, _⟩ => ⟨S1x8x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_call1_v0 : Ref sig .tc := ⟨.hbm, 45, rfl⟩
abbrev main_call1_v1 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S800x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x8x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S100000x32x64_S100000x16x128 : S100000x32x64.ShapeCasts S100000x16x128
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  concatenates_S64_S64_S128_d0 : Shape.Concatenates [S64, S64] S128 0
  shapeCasts_S128_S1x128 : S128.ShapeCasts S1x128
  shapeCasts_S64_S1x64 : S64.ShapeCasts S1x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S800x64_S800x64_0_0 : ∀ a, (![0, 0] : Fin 2 → Nat) a + S800x64.size a ≤ S800x64.size a
  h_S800x64 : 0 < S800x64.numel
  broadcasts_S1x64_S800x64 : S1x64.Broadcasts S800x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S800x16x128_S800x16x128_0_0_0 : ∀ a, (![0, 0, 0] : Fin 3 → Nat) a + S800x16x128.size a ≤ S800x16x128.size a
  h_S800x16x128 : 0 < S800x16x128.numel
  shapeCasts_S800x16x128_S800x16x128 : S800x16x128.ShapeCasts S800x16x128
  shapeCasts_S800x16x128_S12800x128 : S800x16x128.ShapeCasts S12800x128
  broadcasts_S1x128_S12800x128 : S1x128.Broadcasts S12800x128
  shapeCasts_S12800x128_S800x16x128 : S12800x128.ShapeCasts S800x16x128
  reduces_S800x16x128_S800x128 : S800x16x128.Reduces [1] S800x128
  slices_S800x128_o0_0_S800x64 : S800x128.Slices ![0, 0] S800x64
  slices_S800x128_o0_64_S800x64 : S800x128.Slices ![0, 64] S800x64
  reduces_S800x64_S800 : S800x64.Reduces [1] S800
  shapeCasts_S800_S800x1 : S800.ShapeCasts S800x1
  broadcasts_S800x1_S800x64 : S800x1.Broadcasts S800x64
  reduces_S800x64_S64 : S800x64.Reduces [0] S64
  shapeCasts_S1x64_S1x1x64 : S1x64.ShapeCasts S1x1x64
  shapeCasts_S1x1x64_S1x1x64 : S1x1x64.ShapeCasts S1x1x64
  broadcasts_S1x1x64_S1x8x64 : S1x1x64.Broadcasts S1x8x64
  inb_S1x8x64_S1x8x64_0_0_0 : ∀ a, (![0, 0, 0] : Fin 3 → Nat) a + S1x8x64.size a ≤ S1x8x64.size a
  h_S1x8x64 : 0 < S1x8x64.numel
  slices_S125x8x64_S125x1x64_0_0_0 : S125x8x64.Slices ![0, 0, 0] S125x1x64
  shapeCasts_S125x1x64_S125x64 : S125x1x64.ShapeCasts S125x64
  reducesTo_S125x64_S64_d0 : S125x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  reducesTo_S1x64_S1_d1 : S1x64.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S1x1_S1x64_0_1 : S1x1.BroadcastsInDim S1x64 (![0, 1] : Fin 2 → Fin S1x64.rank)
  transposes_S1x64_S64x1_1_0 : S1x64.Transposes [1, 0] S64x1
  bcast_S1_S1x1_1 : S1.BroadcastsInDim S1x1 (![1] : Fin 1 → Fin S1x1.rank)
  dot_S800x64_S64x64_S800x64_1_0_0_1_n_n_wf : DotDims.WF S800x64 S64x64 S800x64 [1] [0] [0] [1] [] []
  dot_S12800x128_S128x128_S12800x128_1_0_0_1_n_n_wf : DotDims.WF S12800x128 S128x128 S12800x128 [1] [0] [0] [1] [] []
  dot_S1x64_S64x64_S1x64_1_0_0_1_n_n_wf : DotDims.WF S1x64 S64x64 S1x64 [1] [0] [0] [1] [] []
  dot_S1x64_S64x1_S1x1_1_0_0_1_n_n_wf : DotDims.WF S1x64 S64x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x64.size a ≤ S100000x64.size a
  hwx0_0 : ∀ i : grid0.Coords, EltTy.bits .f32 = 32 ∨ (Rect.block (s := S100000x64) S800x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x16x128.size a ≤ S100000x16x128.size a
  hwx0_1 : ∀ i : grid0.Coords, EltTy.bits .f32 = 32 ∨ (Rect.block (s := S100000x16x128) S800x16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x8x64.size a ≤ S125x8x64.size a
  hwx0_9 : ∀ i : grid0.Coords, EltTy.bits .f32 = 32 ∨ (Rect.block (s := S125x8x64) S1x8x64.size (cc0_transform_9 i) (hinb0_9 i)).WholeWords (EltTy.packing .f32)

variable [Facts₀]

def dot_S800x64_S64x64_S800x64_1_0_0_1_n_n : DotDims S800x64 S64x64 S800x64 where
  lhsContracting := [1]
  rhsContracting := [0]
  lhsNonContracting := [0]
  rhsNonContracting := [1]
  lhsBatch := []
  rhsBatch := []
  wf := dot_S800x64_S64x64_S800x64_1_0_0_1_n_n_wf
def dot_S12800x128_S128x128_S12800x128_1_0_0_1_n_n : DotDims S12800x128 S128x128 S12800x128 where
  lhsContracting := [1]
  rhsContracting := [0]
  lhsNonContracting := [0]
  rhsNonContracting := [1]
  lhsBatch := []
  rhsBatch := []
  wf := dot_S12800x128_S128x128_S12800x128_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

abbrev win0_0 : Pipeline.Window sig grid0 :=
  Pipeline.Window.ofSpec (Memref.whole main_arg0) S800x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S800x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1x8x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x64 : Shape := ⟨2, ![100000, 64]⟩
abbrev S100000x32x64 : Shape := ⟨3, ![100000, 32, 64]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩
abbrev S1x1x64 : Shape := ⟨3, ![1, 1, 64]⟩
abbrev S100000 : Shape := ⟨1, ![100000]⟩
abbrev S100000x1 : Shape := ⟨2, ![100000, 1]⟩
abbrev S99999x64 : Shape := ⟨2, ![99999, 64]⟩
abbrev S1x1 : Shape := ⟨2, ![1, 1]⟩
abbrev S64x1 : Shape := ⟨2, ![64, 1]⟩

abbrev nBuf : Space → Nat
  | .hbm => 100
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x32x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S1x64, .f32⟩
  | .hbm, ⟨11, _⟩ => ⟨S1, .f32⟩
  | .hbm, ⟨12, _⟩ => ⟨S64x64, .f32⟩
  | .hbm, ⟨13, _⟩ => ⟨S100000x64, .f32⟩
  | .hbm, ⟨14, _⟩ => ⟨S1x64, .f32⟩
  | .hbm, ⟨15, _⟩ => ⟨S100000x64, .f32⟩
  | .hbm, ⟨16, _⟩ => ⟨S100000x64, .f32⟩
  | .hbm, ⟨17, _⟩ => ⟨S_, .f32⟩
  | .hbm, ⟨18, _⟩ => ⟨S100000x64, .f32⟩
  | .hbm, ⟨19, _⟩ => ⟨S100000x64, .f32⟩
  | .hbm, ⟨20, _⟩ => ⟨S100000x32x64, .f32⟩
  | .hbm, ⟨21, _⟩ => ⟨S1x1x64, .f32⟩
  | .hbm, ⟨22, _⟩ => ⟨S100000x32x64, .f32⟩
  | .hbm, ⟨23, _⟩ => ⟨S100000x32x64, .f32⟩
  | .hbm, ⟨24, _⟩ => ⟨S_, .f32⟩
  | .hbm, ⟨25, _⟩ => ⟨S100000x32x64, .f32⟩
  | .hbm, ⟨26, _⟩ => ⟨S100000x32x64, .f32⟩
  | .hbm, ⟨27, _⟩ => ⟨S_, .f32⟩
  | .hbm, ⟨28, _⟩ => ⟨S100000x64, .f32⟩
  | .hbm, ⟨29, _⟩ => ⟨S100000x64, .f32⟩
  | .hbm, ⟨30, _⟩ => ⟨S64x64, .f32⟩
  | .hbm, ⟨31, _⟩ => ⟨S100000x64, .f32⟩
  | .hbm, ⟨32, _⟩ => ⟨S_, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S_, .f32⟩
  | .hbm, ⟨37, _⟩ => ⟨S100000, .f32⟩
  | .hbm, ⟨38, _⟩ => ⟨S100000x1, .f32⟩
  | .hbm, ⟨39, _⟩ => ⟨S100000x1, .f32⟩
  | .hbm, ⟨40, _⟩ => ⟨S_, .f32⟩
  | .hbm, ⟨41, _⟩ => ⟨S100000x1, .f32⟩
  | .hbm, ⟨42, _⟩ => ⟨S100000x1, .i1⟩
  | .hbm, ⟨43, _⟩ => ⟨S_, .f32⟩
  | .hbm, ⟨44, _⟩ => ⟨S_, .f32⟩
  | .hbm, ⟨45, _⟩ => ⟨S100000x1, .f32⟩
  | .hbm, ⟨46, _⟩ => ⟨S100000x1, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S64x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S_, .f32⟩
  | .hbm, ⟨55, _⟩ => ⟨S1x64, .f32⟩
  | .hbm, ⟨56, _⟩ => ⟨S1x64, .f32⟩
  | .hbm, ⟨57, _⟩ => ⟨S99999x64, .f32⟩
  | .hbm, ⟨58, _⟩ => ⟨S64x64, .f32⟩
  | .hbm, ⟨59, _⟩ => ⟨S99999x64, .f32⟩
  | .hbm, ⟨60, _⟩ => ⟨S1x64, .f32⟩
  | .hbm, ⟨61, _⟩ => ⟨S99999x64, .f32⟩
  | .hbm, ⟨62, _⟩ => ⟨S99999x64, .f32⟩
  | .hbm, ⟨63, _⟩ => ⟨S_, .f32⟩
  | .hbm, ⟨64, _⟩ => ⟨S99999x64, .f32⟩
  | .hbm, ⟨65, _⟩ => ⟨S99999x64, .f32⟩
  | .hbm, ⟨66, _⟩ => ⟨S_, .f32⟩
  | .hbm, ⟨67, _⟩ => ⟨S64, .f32⟩
  | .hbm, ⟨68, _⟩ => ⟨S1x64, .f32⟩
  | .hbm, ⟨69, _⟩ => ⟨S1x64, .f32⟩
  | .hbm, ⟨70, _⟩ => ⟨S64x64, .f32⟩
  | .hbm, ⟨71, _⟩ => ⟨S1x64, .f32⟩
  | .hbm, ⟨72, _⟩ => ⟨S_, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S_, .f32⟩
  | .hbm, ⟨77, _⟩ => ⟨S1, .f32⟩
  | .hbm, ⟨78, _⟩ => ⟨S1x1, .f32⟩
  | .hbm, ⟨79, _⟩ => ⟨S1x1, .f32⟩
  | .hbm, ⟨80, _⟩ => ⟨S_, .f32⟩
  | .hbm, ⟨81, _⟩ => ⟨S1x1, .f32⟩
  | .hbm, ⟨82, _⟩ => ⟨S1x1, .i1⟩
  | .hbm, ⟨83, _⟩ => ⟨S_, .f32⟩
  | .hbm, ⟨84, _⟩ => ⟨S_, .f32⟩
  | .hbm, ⟨85, _⟩ => ⟨S1x1, .f32⟩
  | .hbm, ⟨86, _⟩ => ⟨S1x1, .f32⟩
  | .hbm, ⟨87, _⟩ => ⟨S1x64, .f32⟩
  | .hbm, ⟨88, _⟩ => ⟨S1x64, .f32⟩
  | .hbm, ⟨89, _⟩ => ⟨S64x64, .f32⟩
  | .hbm, ⟨90, _⟩ => ⟨S1x64, .f32⟩
  | .hbm, ⟨91, _⟩ => ⟨S1x64, .f32⟩
  | .hbm, ⟨92, _⟩ => ⟨S1x64, .f32⟩
  | .hbm, ⟨93, _⟩ => ⟨S_, .f32⟩
  | .hbm, ⟨94, _⟩ => ⟨S1x64, .f32⟩
  | .hbm, ⟨95, _⟩ => ⟨S1x64, .f32⟩
  | .hbm, ⟨96, _⟩ => ⟨S64x1, .f32⟩
  | .hbm, ⟨97, _⟩ => ⟨S1x1, .f32⟩
  | .hbm, ⟨98, _⟩ => ⟨S1x1, .f32⟩
  | .hbm, ⟨99, _⟩ => ⟨S1x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call1_cst : Ref sig .tc := ⟨.hbm, 24, rfl⟩
abbrev main_call1_v0 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call2_cst : Ref sig .tc := ⟨.hbm, 32, rfl⟩
abbrev main_call2_v0 : Ref sig .tc := ⟨.hbm, 33, rfl⟩
abbrev main_v15 : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_call3_v0 : Ref sig .tc := ⟨.hbm, 44, rfl⟩
abbrev main_call3_v1 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call4_cst : Ref sig .tc := ⟨.hbm, 54, rfl⟩
abbrev main_call4_v0 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call5_cst : Ref sig .tc := ⟨.hbm, 63, rfl⟩
abbrev main_call5_v0 : Ref sig .tc := ⟨.hbm, 64, rfl⟩
abbrev main_v37 : Ref sig .tc := ⟨.hbm, 65, rfl⟩
abbrev main_cst_3 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_call6_cst : Ref sig .tc := ⟨.hbm, 72, rfl⟩
abbrev main_call6_v0 : Ref sig .tc := ⟨.hbm, 73, rfl⟩
abbrev main_v43 : Ref sig .tc := ⟨.hbm, 74, rfl⟩
abbrev main_v44 : Ref sig .tc := ⟨.hbm, 75, rfl⟩
abbrev main_cst_4 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_5 : Ref sig .tc := ⟨.hbm, 80, rfl⟩
abbrev main_v48 : Ref sig .tc := ⟨.hbm, 81, rfl⟩
abbrev main_v49 : Ref sig .tc := ⟨.hbm, 82, rfl⟩
abbrev main_cst_6 : Ref sig .tc := ⟨.hbm, 83, rfl⟩
abbrev main_call7_v0 : Ref sig .tc := ⟨.hbm, 84, rfl⟩
abbrev main_call7_v1 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_call8_cst : Ref sig .tc := ⟨.hbm, 93, rfl⟩
abbrev main_call8_v0 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S64_S1x1x64_2 : S64.BroadcastsInDim S1x1x64 (![2] : Fin 1 → Fin S1x1x64.rank)
  bcast_S1x1x64_S100000x32x64_0_1_2 : S1x1x64.BroadcastsInDim S100000x32x64 (![0, 1, 2] : Fin 3 → Fin S100000x32x64.rank)
  bcast_S_S100000x32x64 : S_.BroadcastsInDim S100000x32x64 (![] : Fin 0 → Fin S100000x32x64.rank)
  reducesTo_S100000x32x64_S100000x64_d1 : S100000x32x64.ReducesTo [1] S100000x64
  h_S_ : 0 < S_.numel
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  slices_S100000x64_S1x64_0_0 : S100000x64.Slices ![0, 0] S1x64
  bcast_S_S1x64 : S_.BroadcastsInDim S1x64 (![] : Fin 0 → Fin S1x64.rank)
  slices_S100000x64_S99999x64_1_0 : S100000x64.Slices ![1, 0] S99999x64
  bcast_S1x64_S99999x64_0_1 : S1x64.BroadcastsInDim S99999x64 (![0, 1] : Fin 2 → Fin S99999x64.rank)
  bcast_S_S99999x64 : S_.BroadcastsInDim S99999x64 (![] : Fin 0 → Fin S99999x64.rank)
  reducesTo_S99999x64_S64_d0 : S99999x64.ReducesTo [0] S64
  reducesTo_S1x64_S1_d1 : S1x64.ReducesTo [1] S1
  bcast_S1_S1x1_0 : S1.BroadcastsInDim S1x1 (![0] : Fin 1 → Fin S1x1.rank)
  bcast_S_S1x1 : S_.BroadcastsInDim S1x1 (![] : Fin 0 → Fin S1x1.rank)
  bcast_S1x1_S1x64_0_1 : S1x1.BroadcastsInDim S1x64 (![0, 1] : Fin 2 → Fin S1x64.rank)
  transposes_S1x64_S64x1_1_0 : S1x64.Transposes [1, 0] S64x1
  bcast_S1_S1x1_1 : S1.BroadcastsInDim S1x1 (![1] : Fin 1 → Fin S1x1.rank)
  dot_S100000x64_S64x64_S100000x64_1_0_0_1_n_n_wf : DotDims.WF S100000x64 S64x64 S100000x64 [1] [0] [0] [1] [] []
  dot_S100000x32x64_S64x64_S100000x32x64_2_1_01_0_n_n_wf : DotDims.WF S100000x32x64 S64x64 S100000x32x64 [2] [1] [0, 1] [0] [] []
  dot_S1x64_S64x64_S1x64_1_0_0_1_n_n_wf : DotDims.WF S1x64 S64x64 S1x64 [1] [0] [0] [1] [] []
  dot_S99999x64_S64x64_S99999x64_1_0_0_1_n_n_wf : DotDims.WF S99999x64 S64x64 S99999x64 [1] [0] [0] [1] [] []
  dot_S1x64_S64x1_S1x1_1_0_0_1_n_n_wf : DotDims.WF S1x64 S64x1 S1x1 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x32x64_S64x64_S100000x32x64_2_1_01_0_n_n : DotDims S100000x32x64 S64x64 S100000x32x64 where
  lhsContracting := [2]
  rhsContracting := [1]
  lhsNonContracting := [0, 1]
  rhsNonContracting := [0]
  lhsBatch := []
  rhsBatch := []
  wf := dot_S100000x32x64_S64x64_S100000x32x64_2_1_01_0_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S99999x64_S64x64_S99999x64_1_0_0_1_n_n : DotDims S99999x64 S64x64 S99999x64 where
  lhsContracting := [1]
  rhsContracting := [0]
  lhsNonContracting := [0]
  rhsNonContracting := [1]
  lhsBatch := []
  rhsBatch := []
  wf := dot_S99999x64_S64x64_S99999x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

class Facts : Prop extends Facts₀ where

variable [Facts]
-- ==== Proof.Layer.lean ====
/-
  The mathematics of one message-passing layer followed by a global pooling, on the extended reals.

  A node has a feature row xs of length 64 and 32 neighbour rows xn k. One layer maps every row v through the
  affine map v ↦ W v + b followed by the clamp at zero, takes the entrywise maximum of the node's own image and the
  images of its neighbours, maps the result through a second matrix followed by the clamp, divides by its
  Euclidean norm (by one where the norm is not positive), and maps through a third affine map and clamp. The
  quantity both programs feed to their common last lines is the entrywise supremum of that row function over all
  100000 nodes.

  Besides the definitions this file has the three regroupings the comparison needs, none of which uses anything
  but commutativity and associativity of +, sup, and x · 0 = 0:
  * a supremum over n = a·b indices is the supremum over a blocks of the suprema over b indices;
  * a supremum over n + 1 indices is the first value joined with the supremum over the other n;
  * an inner product of a 128-long row with a column of the block-diagonal matrix diag(Wᵀ, Wᵀ) is the
    inner product of one 64-long half of the row with a column of Wᵀ.
-/
import Idealize.ShloMosaic.PureOps.Ideal
import Idealize.ShloMosaic.PureOps.Ideal.Laws
import Idealize.ShloMosaic.Lib.ValueIdx
import Mathlib.Order.CompleteLattice.Basic
import Mathlib.Algebra.BigOperators.Fin

noncomputable section

namespace Cert.Layer

open Idealize.ShloMosaic
open scoped BigOperators

/-! ## The row function -/

/-- max (Σ_d v d · W o d + b o) 0: an affine map (W read as out × in) followed by the clamp at zero. -/
def affRelu (W : Fin 64 → Fin 64 → EReal) (b : Fin 64 → EReal) (v : Fin 64 → EReal) (o : Fin 64) : EReal :=
  max ((∑ d : Fin 64, v d * W o d) + b o) 0

/-- The entrywise maximum of the node's own image and its 32 neighbours' images. -/
def pooled (W : Fin 64 → Fin 64 → EReal) (b : Fin 64 → EReal) (xs : Fin 64 → EReal) (xn : Fin 32 → Fin 64 → EReal)
    (o : Fin 64) : EReal :=
  max (affRelu W b xs o) (⨆ k : Fin 32, affRelu W b (xn k) o)

/-- A linear map (no bias) followed by the clamp at zero. -/
def embed (E : Fin 64 → Fin 64 → EReal) (a : Fin 64 → EReal) (o : Fin 64) : EReal :=
  max (∑ d : Fin 64, a d * E o d) 0

/-- The Euclidean norm of a row. -/
def norm2 (e : Fin 64 → EReal) : EReal := Ideal.sqrt (∑ f : Fin 64, e f * e f)

/-- The row divided by its norm, or by one where the norm is not positive. -/
def unitize (e : Fin 64 → EReal) (o : Fin 64) : EReal :=
  Ideal.div (e o) (Scalar.select (Ideal.cmp .ogt (norm2 e) 0) (norm2 e) (Ideal.ofBits .f32 0x3F800000#32))

/-- One node's contribution to the global pooling. -/
def rowT (W1 : Fin 64 → Fin 64 → EReal) (b1 : Fin 64 → EReal) (E1 W2 : Fin 64 → Fin 64 → EReal) (b2 : Fin 64 → EReal)
    (xs : Fin 64 → EReal) (xn : Fin 32 → Fin 64 → EReal) : Fin 64 → EReal :=
  affRelu W2 b2 (unitize (embed E1 (pooled W1 b1 xs xn)))

/-! ## Suprema regrouped -/

section Sup
variable {α : Type*} [CompleteLattice α]

theorem pair_lt {a b : ℕ} (p : Fin a) (q : Fin b) : p.val * b + q.val < a * b := by
  have hp := p.isLt; have hq := q.isLt
  calc p.val * b + q.val < p.val * b + b := by omega
    _ = (p.val + 1) * b := by ring
    _ ≤ a * b := Nat.mul_le_mul_right b hp

/-- A supremum over a · b indices, block by block. -/
theorem iSup_blocks {n a b : ℕ} (h : n = a * b) (f : Fin n → α) :
    (⨆ i : Fin n, f i) = ⨆ p : Fin a, ⨆ q : Fin b, f ⟨p.val * b + q.val, h ▸ pair_lt p q⟩ := by
  subst h
  refine le_antisymm (iSup_le fun i => ?_) (iSup_le fun p => iSup_le fun q => le_iSup f _)
  have hb : 0 < b := by
    rcases Nat.eq_zero_or_pos b with hb | hb
    · exact absurd i.isLt (by simp [hb])
    · exact hb
  have hd : i.val / b < a := Nat.div_lt_of_lt_mul (lt_of_lt_of_eq i.isLt (Nat.mul_comm a b))
  refine le_iSup_of_le ⟨i.val / b, hd⟩ (le_iSup_of_le ⟨i.val % b, Nat.mod_lt _ hb⟩ (le_of_eq (congrArg f (Fin.ext ?_))))
  exact (Nat.div_add_mod' i.val b).symm

/-- A supremum over two indices is a join. -/
theorem iSup_two (g : Fin 2 → α) : (⨆ h : Fin 2, g h) = g 0 ⊔ g 1 :=
  le_antisymm (iSup_le fun h => by
      match h with
      | ⟨0, _⟩ => exact le_sup_left
      | ⟨1, _⟩ => exact le_sup_right)
    (sup_le (le_iSup g 0) (le_iSup g 1))

/-- The first value joined with the supremum of the rest. -/
theorem iSup_head_tail {n : ℕ} (f : Fin (n + 1) → α) :
    f ⟨0, Nat.succ_pos n⟩ ⊔ (⨆ k : Fin n, f ⟨k.val + 1, Nat.succ_lt_succ k.isLt⟩) = ⨆ i : Fin (n + 1), f i := by
  refine le_antisymm (sup_le (le_iSup f _) (iSup_le fun k => le_iSup f _)) (iSup_le fun i => ?_)
  by_cases hi : i.val = 0
  · exact le_sup_of_le_left (le_of_eq (congrArg f (Fin.ext hi)))
  · have hlt : i.val - 1 < n := by have := i.isLt; omega
    exact le_sup_of_le_right (le_iSup_of_le ⟨i.val - 1, hlt⟩ (le_of_eq (congrArg f (Fin.ext (by
      show i.val = i.val - 1 + 1
      omega)))))

end Sup

/-! ## The block-diagonal weight -/

/-- Position d of the first half of a 128-long row. -/
def lo (d : Fin 64) : Fin 128 := ⟨d.val, by have := d.isLt; omega⟩
/-- Position d of the second half. -/
def hi (d : Fin 64) : Fin 128 := ⟨64 + d.val, by have := d.isLt; omega⟩

theorem sum_halves (g : Fin 128 → EReal) : ∑ l : Fin 128, g l = (∑ d : Fin 64, g (lo d)) + ∑ d : Fin 64, g (hi d) :=
  Fin.sum_univ_add (a := 64) (b := 64) (fun l : Fin (64 + 64) => g l)

/-- Neighbour 2j + h of 32, for j of 16 and h of 2. -/
def nb (j : Fin 16) (h : Fin 2) : Fin 32 := ⟨j.val * 2 + h.val, pair_lt j h⟩

/-- Two neighbours' rows side by side against diag(Wᵀ, Wᵀ) with the bias repeated, pooled over the 16 pairs and
    then over the two halves, is the pooling over all 32 neighbours. y j is the 128-long concatenation of
    neighbours 2j and 2j+1; w2 l c is the block-diagonal matrix; b2 the doubled bias. -/
theorem folded_pool (W : Fin 64 → Fin 64 → EReal) (b : Fin 64 → EReal) (xn : Fin 32 → Fin 64 → EReal)
    (y : Fin 16 → Fin 128 → EReal) (w2 : Fin 128 → Fin 128 → EReal) (b2 : Fin 128 → EReal)
    (hy0 : ∀ j d, y j (lo d) = xn (nb j 0) d) (hy1 : ∀ j d, y j (hi d) = xn (nb j 1) d)
    (h00 : ∀ d o, w2 (lo d) (lo o) = W o d) (h01 : ∀ d o, w2 (lo d) (hi o) = 0)
    (h10 : ∀ d o, w2 (hi d) (lo o) = 0) (h11 : ∀ d o, w2 (hi d) (hi o) = W o d)
    (hb0 : ∀ o, b2 (lo o) = b o) (hb1 : ∀ o, b2 (hi o) = b o) (o : Fin 64) :
    max (⨆ j : Fin 16, max ((∑ l : Fin 128, y j l * w2 l (lo o)) + b2 (lo o)) 0)
        (⨆ j : Fin 16, max ((∑ l : Fin 128, y j l * w2 l (hi o)) + b2 (hi o)) 0)
      = ⨆ k : Fin 32, affRelu W b (xn k) o := by
  have e0 : ∀ j : Fin 16, max ((∑ l : Fin 128, y j l * w2 l (lo o)) + b2 (lo o)) 0 = affRelu W b (xn (nb j 0)) o := by
    intro j
    unfold affRelu
    rw [sum_halves, hb0]
    simp only [hy0, hy1, h00, h10, mul_zero, Finset.sum_const_zero, add_zero]
  have e1 : ∀ j : Fin 16, max ((∑ l : Fin 128, y j l * w2 l (hi o)) + b2 (hi o)) 0 = affRelu W b (xn (nb j 1)) o := by
    intro j
    unfold affRelu
    rw [sum_halves, hb1]
    simp only [hy0, hy1, h01, h11, mul_zero, Finset.sum_const_zero, zero_add]
  simp only [e0, e1]
  rw [iSup_blocks (show 32 = 16 * 2 from rfl) (fun k : Fin 32 => affRelu W b (xn k) o)]
  rw [← iSup_sup_eq]
  refine iSup_congr fun j => ?_
  exact (iSup_two fun h : Fin 2 => affRelu W b (xn (nb j h)) o).symm

end Cert.Layer

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«121091_j19258633356195_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibRowPairs.lean ====
/-
  Rows indexed by a pair, read at an index.

  A batch of `a · b` rows of length `c` is held either as a matrix `[n, c]` with `n = a · b`, row `p · b + q` being
  the row of the pair `(p, q)`, or as an array `[a, b, c]`; one value per pair is held either as `[a, b]` or as one line
  `[1, 1, n]`. A shape cast keeps the row-major position of every element, so reading one form at its index reads the
  other form at the index of the same pair. That `n = a · b` is part of the cast's hypothesis; the statements only need
  the row's number written as `p · b + q`.
-/
import Idealize.ShloMosaic.Lib.Pipeline.Value
import Idealize.ShloMosaic.Lib.ValueIdx

namespace Idealize.ShloMosaic.RowPairs

open Idealize.ShloMosaic Idealize.ShloMosaic.ValueIdx

variable {α : Type}

/-- An `[a, b, c]` array cast to the matrix `[n, c]` reads, at row `p · b + q` and column `k`, the array at `(p, q, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- The matrix `[n, c]` cast to `[a, b, c]` reads, at `(p, q, k)`, the matrix at row `p · b + q` and column `k`. -/
theorem shapeCast_nc_abc_apply {a b c n : ℕ} (y : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ y h (ix3 p q k) = y (ix2 r k) :=
  shapeCast_apply y h _ _ (by
    rw [Shape.rowMajor_val_two, Shape.rowMajor_val_three]
    show r.val * c + k.val = (p.val * b + q.val) * c + k.val
    rw [hr])

/-- An `[a, b]` array of one value per pair, cast to the line `[1, 1, n]`, reads at position `p · b + q` the value of
    the pair `(p, q)`. -/
theorem shapeCast_ab_11n_apply {a b n : ℕ} (z : (⟨2, ![a, b]⟩ : Shape).Idx → α)
    (h : (⟨2, ![a, b]⟩ : Shape).ShapeCasts ⟨3, ![1, 1, n]⟩) (u v : Fin 1) (p : Fin a) (q : Fin b) (j : Fin n)
    (hj : j.val = p.val * b + q.val) :
    shapeCast ⟨3, ![1, 1, n]⟩ z h (ix3 u v j) = z (ix2 p q) :=
  shapeCast_apply z h _ _ (by
    have hu : u.val = 0 := by omega
    have hv : v.val = 0 := by omega
    rw [Shape.rowMajor_val_two, Shape.rowMajor_val_three]
    show p.val * b + q.val = (u.val * 1 + v.val) * n + j.val
    rw [hu, hv, hj]
    simp)

end Idealize.ShloMosaic.RowPairs
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibUnitAxisLayout.lean ====
/-
  Layout operations of rank-3 arrays with unit axes, read at an index given by coordinates.

  A value that depends on fewer coordinates than the array it is combined with is carried as an
  array with unit axes and broadcast: a per-sample scalar as [a, 1, 1], a per-lane row as [1, 1, c],
  a per-sample row of lanes as [a, 1, c], each broadcast to [a, b, c]. Reading the broadcast at
  (p, q, r) reads the operand at the coordinates it has, and 0 on its unit axes. The casts that
  insert the middle unit axis, and the slice that picks one entry (k1, k2) of every sample's small
  matrix as an [a, 1, 1] column, are read the same way. Every lemma is the general statement of the
  operation at an index with the two indices written out coordinate by coordinate.
-/
import Idealize.ShloMosaic.Lib.Pipeline.Value
import Idealize.ShloMosaic.Lib.ValueIdx

namespace Idealize.ShloMosaic.UnitAxisLayout

open Idealize.ShloMosaic Idealize.ShloMosaic.ValueIdx

variable {α : Type}

/-! ## Broadcasts to [a, b, c] -/

/-- An [a, 1, 1] column broadcast to [a, b, c] reads, at (p, q, r), the column's entry p. -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- A [1, 1, c] row broadcast to [a, b, c] reads, at (p, q, r), the row's entry r. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An [a, 1, c] slab broadcast to [a, b, c] reads, at (p, q, r), the slab's entry (p, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-! ## The cast that inserts a middle unit axis -/

/-- An [a, c] matrix cast to [a, 1, c] reads, at (p, u, r), the matrix at (p, r). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-! ## One entry of every sample's small matrix, as a column -/

/-- The unit-size slice of an [a, n1, n2] array at offsets (0, o1, o2) is the [a, 1, 1] column of the
    entries (k1, k2) = (o1, o2): at (p, 0, 0) it reads the array at (p, k1, k2). -/
theorem slice_entry_apply {a n1 n2 : ℕ} (o1 o2 : ℕ) (x : (⟨3, ![a, n1, n2]⟩ : Shape).Idx → α)
    (h : (⟨3, ![a, n1, n2]⟩ : Shape).Slices ![0, o1, o2] ⟨3, ![a, 1, 1]⟩) (p : Fin a) (u v : Fin 1)
    (k1 : Fin n1) (k2 : Fin n2) (hk1 : k1.val = o1) (hk2 : k2.val = o2) :
    extractStridedSlice ⟨3, ![a, 1, 1]⟩ ![0, o1, o2] x h (ix3 p u v) = x (ix3 p k1 k2) := by
  refine extractStridedSlice_apply ![0, o1, o2] x h (ix3 p u v) (ix3 p k1 k2) fun ax => ?_
  have hu : u.val = 0 := by omega
  have hv : v.val = 0 := by omega
  match ax with
  | ⟨0, _⟩ => show p.val = 0 + p.val; omega
  | ⟨1, _⟩ => show k1.val = o1 + u.val; omega
  | ⟨2, _⟩ => show k2.val = o2 + v.val; omega

/-- The same entry carried through the flattening [a, 1, 1] → [a] → [a, 1, 1] and broadcast to
    [a, b, c]: at (p, q, r) it is the array's entry (p, k1, k2). -/
theorem broadcast_entry_apply {a n1 n2 b c : ℕ} (o1 o2 : ℕ) (x : (⟨3, ![a, n1, n2]⟩ : Shape).Idx → α)
    (hs : (⟨3, ![a, n1, n2]⟩ : Shape).Slices ![0, o1, o2] ⟨3, ![a, 1, 1]⟩)
    (h1 : (⟨3, ![a, 1, 1]⟩ : Shape).ShapeCasts ⟨1, ![a]⟩) (h2 : (⟨1, ![a]⟩ : Shape).ShapeCasts ⟨3, ![a, 1, 1]⟩)
    (hb : (⟨3, ![a, 1, 1]⟩ : Shape).Broadcasts ⟨3, ![a, b, c]⟩) (p : Fin a) (q : Fin b) (r : Fin c)
    (k1 : Fin n1) (k2 : Fin n2) (hk1 : k1.val = o1) (hk2 : k2.val = o2) :
    broadcastTo ⟨3, ![a, b, c]⟩
        (shapeCast ⟨3, ![a, 1, 1]⟩ (shapeCast ⟨1, ![a]⟩ (extractStridedSlice ⟨3, ![a, 1, 1]⟩ ![0, o1, o2] x hs) h1) h2) hb
        (ix3 p q r)
      = x (ix3 p k1 k2) := by
  rw [broadcastTo_a11_abc_apply, shapeCast_shapeCast]
  exact slice_entry_apply o1 o2 x hs p 0 0 k1 k2 hk1 hk2

end Idealize.ShloMosaic.UnitAxisLayout
-- ==== Proof.BlockValue.lean ====
/-
  One grid step of the kernel, read on the extended reals.

  At a grid step the body holds a block of 800 node rows x0 (800 × 64), their neighbours folded two to a 128-long
  row x1 (800 × 16 × 128), and the weights as laid out for the body: x2, x6, x7 are matrices stored in × out, x3 and
  x8 biases as 1 × 64 rows, x4 the 128 × 128 matrix for the folded neighbours and x5 its 1 × 128 bias. What the
  body stores, at every one of its 8 sublane rows and at column o, is the maximum over the block's 800 rows of the
  row function of Layer.lean. The body's value is first cut into named pieces (a dense layer, the pooled
  neighbours, the embedding, the division by the norm, the block maximum), each read at an index; matrix products
  are inner products, reductions are sums and suprema, and every shape cast and broadcast keeps or repeats entries.
-/
import proofs.«121091_j19258633356195_2_alg».proof.Proof.Gen.KernelIdeal.Skeleton
import proofs.«121091_j19258633356195_2_alg».proof.Proof.Layer
import proofs.«121091_j19258633356195_2_alg».proof.Proof.LibInnerProducts
import proofs.«121091_j19258633356195_2_alg».proof.Proof.LibExtremeReduce
import proofs.«121091_j19258633356195_2_alg».proof.Proof.LibRowPairs
import proofs.«121091_j19258633356195_2_alg».proof.Proof.LibKeepdims
import proofs.«121091_j19258633356195_2_alg».proof.Proof.LibUnitAxisLayout
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.KernelIdeal.Block

open Cert.KernelIdeal Cert.KernelIdeal.Gen
open Idealize.ShloMosaic Idealize.ShloMosaic.ValueIdx Cert.Layer
open scoped BigOperators

/-! ## The pieces of the body's value -/

/-- A dense layer on the block: a · w + b, clamped at zero (w stored in × out, b a 1 × 64 row). -/
def dense (a : FVec Ideal S800x64 .f32) (w : Vec Ideal S64x64 .f32) (b : Vec Ideal S1x64 .f32) : FVec Ideal S800x64 .f32 :=
  maximumf (addf (matmul dot_S800x64_S64x64_S800x64_1_0_0_1_n_n none (truncf .bf16 a bitsLt_bf16_f32)
      (truncf .bf16 (shapeCast S64x64 w shapeCasts_S64x64_S64x64) bitsLt_bf16_f32) (constant S800x64 .f32 0x00000000#32))
    (broadcastTo S800x64 (shapeCast S1x64 b shapeCasts_S1x64_S1x64) broadcasts_S1x64_S800x64))
    (broadcast S800x64 (Scalar.ofBits .f32 0x00000000#32))

/-- The folded neighbours through the 128 × 128 layer, clamped, and maximised over the 16 folded rows. -/
def nbPool (x1 : Vec Ideal S800x16x128 .f32) (x4 : Vec Ideal S128x128 .f32) (x5 : Vec Ideal S1x128 .f32) : FVec Ideal S800x128 .f32 :=
  multiReduction .maximumf [1] S800x128
    (shapeCast S800x16x128
      (maximumf (addf (matmul dot_S12800x128_S128x128_S12800x128_1_0_0_1_n_n none
            (shapeCast S12800x128 (truncf .bf16 (shapeCast S800x16x128 x1 shapeCasts_S800x16x128_S800x16x128) bitsLt_bf16_f32) shapeCasts_S800x16x128_S12800x128)
            (truncf .bf16 (shapeCast S128x128 x4 shapeCasts_S128x128_S128x128) bitsLt_bf16_f32) (constant S12800x128 .f32 0x00000000#32))
          (broadcastTo S12800x128 (shapeCast S1x128 x5 shapeCasts_S1x128_S1x128) broadcasts_S1x128_S12800x128))
        (broadcast S12800x128 (Scalar.ofBits .f32 0x00000000#32)))
      shapeCasts_S12800x128_S800x16x128)
    0xFF800000#32 reduces_S800x16x128_S800x128 (.inl rfl) rfl

/-- The node's own image joined with both halves of the pooled neighbours. -/
def pooledV (x0 : Vec Ideal S800x64 .f32) (x1 : Vec Ideal S800x16x128 .f32) (x2 : Vec Ideal S64x64 .f32) (x3 : Vec Ideal S1x64 .f32)
    (x4 : Vec Ideal S128x128 .f32) (x5 : Vec Ideal S1x128 .f32) : FVec Ideal S800x64 .f32 :=
  maximumf (dense x0 x2 x3)
    (maximumf (extractStridedSlice S800x64 ![0, 0] (nbPool x1 x4 x5) slices_S800x128_o0_0_S800x64)
      (extractStridedSlice S800x64 ![0, 64] (nbPool x1 x4 x5) slices_S800x128_o0_64_S800x64))

/-- The embedding: a · w clamped at zero. -/
def embV (a : FVec Ideal S800x64 .f32) (w : Vec Ideal S64x64 .f32) : FVec Ideal S800x64 .f32 :=
  maximumf (matmul dot_S800x64_S64x64_S800x64_1_0_0_1_n_n none (truncf .bf16 a bitsLt_bf16_f32)
      (truncf .bf16 (shapeCast S64x64 w shapeCasts_S64x64_S64x64) bitsLt_bf16_f32) (constant S800x64 .f32 0x00000000#32))
    (broadcast S800x64 (Scalar.ofBits .f32 0x00000000#32))

/-- The rows' norms as a column. -/
def normCol (e : FVec Ideal S800x64 .f32) : FVec Ideal S800x1 .f32 :=
  sqrt (shapeCast S800x1 (multiReduction .add [1] S800 (mulf e e) 0x00000000#32 reduces_S800x64_S800 (.inl rfl) rfl) shapeCasts_S800_S800x1)

/-- Every row divided by its norm, or by one where the norm is not positive. -/
def unitV (e : FVec Ideal S800x64 .f32) : FVec Ideal S800x64 .f32 :=
  divf e (broadcastTo S800x64
    (select (cmpf .ogt (normCol e) (broadcast S800x1 (Scalar.ofBits .f32 0x00000000#32))) (normCol e)
      (broadcast S800x1 (Scalar.ofBits .f32 0x3F800000#32)))
    broadcasts_S800x1_S800x64)

/-- The maximum over the block's rows, repeated on 8 sublane rows. -/
def blockMax (t : FVec Ideal S800x64 .f32) : FVec Ideal S1x8x64 .f32 :=
  broadcastTo S1x8x64
    (shapeCast S1x1x64
      (shapeCast S1x1x64
        (shapeCast S1x64 (multiReduction .maximumf [0] S64 t 0xFF800000#32 reduces_S800x64_S64 (.inl rfl) rfl) shapeCasts_S64_S1x64)
        shapeCasts_S1x64_S1x1x64)
      shapeCasts_S1x1x64_S1x1x64)
    broadcasts_S1x1x64_S1x8x64

/-- The body's value is these pieces composed. -/
theorem pay_eq (x0 : Vec Ideal S800x64 .f32) (x1 : Vec Ideal S800x16x128 .f32) (x2 : Vec Ideal S64x64 .f32) (x3 : Vec Ideal S1x64 .f32)
    (x4 : Vec Ideal S128x128 .f32) (x5 : Vec Ideal S1x128 .f32) (x6 x7 : Vec Ideal S64x64 .f32) (x8 : Vec Ideal S1x64 .f32) :
    k0_pay1 (F := Ideal) (k0_pay2 x2 x3 x0 x4 x5 x1 x6) (Scalar.ofBits .f32 0x00000000#32) x7 x8
      = blockMax (dense (unitV (embV (pooledV x0 x1 x2 x3 x4 x5) x6)) x7 x8) := rfl

/-! ## Each piece at an index -/

theorem dense_apply (a : FVec Ideal S800x64 .f32) (w : Vec Ideal S64x64 .f32) (b : Vec Ideal S1x64 .f32) (r : Fin 800) (o : Fin 64) :
    dense a w b (ix2 r o) = max ((∑ d : Fin 64, a (ix2 r d) * w (ix2 d o)) + b (ix2 (0 : Fin 1) o)) 0 := by
  unfold dense
  rw [maximumf_apply, addf_apply, broadcast_apply,
    InnerProducts.matmul_zero_apply dot_S800x64_S64x64_S800x64_1_0_0_1_n_n rfl none _ _ r o,
    broadcastTo_1b_ab_apply, shapeCast_self, shapeCast_self]
  show max ((∑ d : Fin 64, a (ix2 r d) * w (ix2 d o)) + b (ix2 (0 : Fin 1) o)) (Ideal.ofBits .f32 0x00000000#32) = _
  rw [Ideal.ofBits_zero_f32]

theorem embV_apply (a : FVec Ideal S800x64 .f32) (w : Vec Ideal S64x64 .f32) (r : Fin 800) (o : Fin 64) :
    embV a w (ix2 r o) = max (∑ d : Fin 64, a (ix2 r d) * w (ix2 d o)) 0 := by
  unfold embV
  rw [maximumf_apply, broadcast_apply,
    InnerProducts.matmul_zero_apply dot_S800x64_S64x64_S800x64_1_0_0_1_n_n rfl none _ _ r o, shapeCast_self]
  show max (∑ d : Fin 64, a (ix2 r d) * w (ix2 d o)) (Ideal.ofBits .f32 0x00000000#32) = _
  rw [Ideal.ofBits_zero_f32]

theorem nbPool_apply (x1 : Vec Ideal S800x16x128 .f32) (x4 : Vec Ideal S128x128 .f32) (x5 : Vec Ideal S1x128 .f32)
    (r : Fin 800) (c : Fin 128) :
    nbPool x1 x4 x5 (ix2 r c)
      = ⨆ j : Fin 16, max ((∑ l : Fin 128, x1 (ix3 r j l) * x4 (ix2 l c)) + x5 (ix2 (0 : Fin 1) c)) 0 := by
  unfold nbPool
  refine (ExtremeReduce.multiReduction_max_single _ reduces_S800x16x128_S800x128 (.inl rfl) rfl (ix2 r c)).trans ?_
  refine iSup_congr fun (j : Fin 16) => ?_
  have hl : reduces_S800x16x128_S800x128.lift (ix2 r c) j = ix3 r j c := by
    funext ax; apply Fin.ext
    match ax with
    | ⟨0, _⟩ => rfl
    | ⟨1, _⟩ => rfl
    | ⟨2, _⟩ => rfl
  rw [hl, RowPairs.shapeCast_nc_abc_apply _ shapeCasts_S12800x128_S800x16x128 r j c ⟨r.val * 16 + j.val, Cert.Layer.pair_lt r j⟩ rfl,
    maximumf_apply, addf_apply, broadcast_apply,
    InnerProducts.matmul_zero_apply dot_S12800x128_S128x128_S12800x128_1_0_0_1_n_n rfl none _ _ _ c,
    broadcastTo_1b_ab_apply, shapeCast_self, shapeCast_self, shapeCast_self]
  have hs : ∀ l : Fin 128,
      (shapeCast S12800x128 (truncf (F := Ideal) .bf16 x1 bitsLt_bf16_f32)
        shapeCasts_S800x16x128_S12800x128 (ix2 (⟨r.val * 16 + j.val, Cert.Layer.pair_lt r j⟩ : Fin 12800) l) : EReal) = x1 (ix3 r j l) := by
    intro l
    rw [RowPairs.shapeCast_abc_nc_apply _ shapeCasts_S800x16x128_S12800x128 r j l _ rfl]
    rfl
  simp only [hs]
  show max ((∑ l : Fin 128, x1 (ix3 r j l) * x4 (ix2 l c)) + x5 (ix2 (0 : Fin 1) c)) (Ideal.ofBits .f32 0x00000000#32) = _
  rw [Ideal.ofBits_zero_f32]

theorem pooledV_apply (x0 : Vec Ideal S800x64 .f32) (x1 : Vec Ideal S800x16x128 .f32) (x2 : Vec Ideal S64x64 .f32) (x3 : Vec Ideal S1x64 .f32)
    (x4 : Vec Ideal S128x128 .f32) (x5 : Vec Ideal S1x128 .f32) (r : Fin 800) (o : Fin 64) :
    pooledV x0 x1 x2 x3 x4 x5 (ix2 r o)
      = max (dense x0 x2 x3 (ix2 r o)) (max (nbPool x1 x4 x5 (ix2 r (lo o))) (nbPool x1 x4 x5 (ix2 r (hi o)))) := by
  unfold pooledV
  rw [maximumf_apply, maximumf_apply,
    slice2_axis1_apply 0 _ slices_S800x128_o0_0_S800x64 r o (lo o) (Nat.zero_add _).symm,
    slice2_axis1_apply 64 _ slices_S800x128_o0_64_S800x64 r o (hi o) rfl]

theorem normCol_apply (e : FVec Ideal S800x64 .f32) (r : Fin 800) (u : Fin 1) :
    normCol e (ix2 r u) = norm2 (fun f => e (ix2 r f)) := by
  unfold normCol norm2
  show Ideal.sqrt (shapeCast S800x1 (multiReduction .add [1] S800 (mulf e e) 0x00000000#32 reduces_S800x64_S800 (.inl rfl) rfl)
    shapeCasts_S800_S800x1 (ix2 r u)) = _
  rw [Cert.LibKeepdims.shapeCast_a_a1_apply]
  refine congrArg Ideal.sqrt ((Ideal.multiReduction_add_single (mulf e e) 0x00000000#32 reduces_S800x64_S800 (.inl rfl) rfl (ix1 r)).trans
    (Finset.sum_congr rfl fun f _ => ?_))
  have hl : reduces_S800x64_S800.lift (ix1 r) f = ix2 r f := by
    funext ax; apply Fin.ext
    match ax with
    | ⟨0, _⟩ => rfl
    | ⟨1, _⟩ => rfl
  rw [hl]
  rfl

theorem unitV_apply (e : FVec Ideal S800x64 .f32) (r : Fin 800) (o : Fin 64) :
    unitV e (ix2 r o) = unitize (fun f => e (ix2 r f)) o := by
  unfold unitV unitize
  rw [divf_apply, Cert.LibKeepdims.broadcastTo_a1_ab_apply, select_apply, cmpf_apply, broadcast_apply, broadcast_apply, normCol_apply]
  show Ideal.div (e (ix2 r o)) (Scalar.select (Ideal.cmp .ogt (norm2 fun f => e (ix2 r f)) (Ideal.ofBits .f32 0x00000000#32))
    (norm2 fun f => e (ix2 r f)) (Ideal.ofBits .f32 0x3F800000#32)) = _
  rw [Ideal.ofBits_zero_f32]

theorem blockMax_apply (t : FVec Ideal S800x64 .f32) (u : Fin 1) (s : Fin 8) (o : Fin 64) :
    blockMax t (ix3 u s o) = ⨆ r : Fin 800, t (ix2 r o) := by
  unfold blockMax
  rw [UnitAxisLayout.broadcastTo_a1c_abc_apply, shapeCast_self, UnitAxisLayout.shapeCast_ac_a1c_apply, shapeCast_a_1a_apply]
  refine (ExtremeReduce.multiReduction_max_single t reduces_S800x64_S64 (.inl rfl) rfl (ix1 o)).trans ?_
  refine iSup_congr fun (r : Fin 800) => ?_
  have hl : reduces_S800x64_S64.lift (ix1 o) r = ix2 r o := by
    funext ax; apply Fin.ext
    match ax with
    | ⟨0, _⟩ => rfl
    | ⟨1, _⟩ => rfl
  rw [hl]

/-! ## The block's value is the row function, maximised over the block -/

/-- With the body's operands read as the layer's data — rows xs r and neighbours xn r k of the block, the weights
    transposed, the 128 × 128 matrix block-diagonal and its bias doubled — the body stores, at every sublane row and
    column o, the supremum over the block's rows of the row function. -/
theorem block_value (x0 : Vec Ideal S800x64 .f32) (x1 : Vec Ideal S800x16x128 .f32) (x2 : Vec Ideal S64x64 .f32) (x3 : Vec Ideal S1x64 .f32)
    (x4 : Vec Ideal S128x128 .f32) (x5 : Vec Ideal S1x128 .f32) (x6 x7 : Vec Ideal S64x64 .f32) (x8 : Vec Ideal S1x64 .f32)
    (W1 : Fin 64 → Fin 64 → EReal) (b1 : Fin 64 → EReal) (E1 W2 : Fin 64 → Fin 64 → EReal) (b2 : Fin 64 → EReal)
    (xs : Fin 800 → Fin 64 → EReal) (xn : Fin 800 → Fin 32 → Fin 64 → EReal)
    (h0 : ∀ r d, x0 (ix2 r d) = xs r d)
    (h1l : ∀ r j d, x1 (ix3 r j (lo d)) = xn r (nb j 0) d) (h1h : ∀ r j d, x1 (ix3 r j (hi d)) = xn r (nb j 1) d)
    (h2 : ∀ d o, x2 (ix2 d o) = W1 o d) (h3 : ∀ o, x3 (ix2 (0 : Fin 1) o) = b1 o)
    (h4ll : ∀ d o, x4 (ix2 (lo d) (lo o)) = W1 o d) (h4lh : ∀ d o, x4 (ix2 (lo d) (hi o)) = 0)
    (h4hl : ∀ d o, x4 (ix2 (hi d) (lo o)) = 0) (h4hh : ∀ d o, x4 (ix2 (hi d) (hi o)) = W1 o d)
    (h5l : ∀ o, x5 (ix2 (0 : Fin 1) (lo o)) = b1 o) (h5h : ∀ o, x5 (ix2 (0 : Fin 1) (hi o)) = b1 o)
    (h6 : ∀ d o, x6 (ix2 d o) = E1 o d) (h7 : ∀ d o, x7 (ix2 d o) = W2 o d) (h8 : ∀ o, x8 (ix2 (0 : Fin 1) o) = b2 o)
    (u : Fin 1) (s : Fin 8) (o : Fin 64) :
    k0_pay1 (F := Ideal) (k0_pay2 x2 x3 x0 x4 x5 x1 x6) (Scalar.ofBits .f32 0x00000000#32) x7 x8 (ix3 u s o)
      = ⨆ r : Fin 800, rowT W1 b1 E1 W2 b2 (xs r) (xn r) o := by
  rw [pay_eq, blockMax_apply]
  refine iSup_congr fun r => ?_
  have hp : ∀ f : Fin 64, pooledV x0 x1 x2 x3 x4 x5 (ix2 r f) = pooled W1 b1 (xs r) (xn r) f := by
    intro f
    rw [pooledV_apply, dense_apply, nbPool_apply, nbPool_apply]
    unfold pooled
    congr 1
    · unfold affRelu
      simp only [h0, h2, h3]
    · exact folded_pool W1 b1 (xn r) (fun j l => x1 (ix3 r j l)) (fun l c => x4 (ix2 l c)) (fun c => x5 (ix2 (0 : Fin 1) c))
        (h1l r) (h1h r) h4ll h4lh h4hl h4hh h5l h5h f
  rw [dense_apply]
  unfold rowT affRelu
  simp only [unitV_apply, embV_apply, hp, h6, h7, h8]
  rfl

end Cert.KernelIdeal.Block

end
-- ==== Proof.Nodes.lean ====
/-
  The layer's data read off the twelve argument arrays, and the quantity both programs pool.

  Argument 0 holds the node rows, argument 1 the neighbour rows (node, neighbour, feature); arguments 2, 4 and 5 are
  the three weight matrices stored out × in, arguments 3 and 6 the two biases. nodeT is node n's row function and
  pooledAll its entrywise supremum over all nodes.
-/
import proofs.«121091_j19258633356195_2_alg».proof.Proof.Layer

noncomputable section

namespace Cert.Layer

open Idealize.ShloMosaic Idealize.ShloMosaic.ValueIdx

/-- A weight matrix stored out × in. -/
def Wof (w : (⟨2, ![64, 64]⟩ : Shape).Idx → EReal) : Fin 64 → Fin 64 → EReal := fun o d => w (ix2 o d)
/-- A bias vector. -/
def bof (b : (⟨1, ![64]⟩ : Shape).Idx → EReal) : Fin 64 → EReal := fun o => b (ix1 o)

/-- Node n's contribution, as a function of the argument arrays. -/
def nodeT (a0 : (⟨2, ![100000, 64]⟩ : Shape).Idx → EReal) (a1 : (⟨3, ![100000, 32, 64]⟩ : Shape).Idx → EReal)
    (a2 : (⟨2, ![64, 64]⟩ : Shape).Idx → EReal) (a3 : (⟨1, ![64]⟩ : Shape).Idx → EReal)
    (a4 a5 : (⟨2, ![64, 64]⟩ : Shape).Idx → EReal) (a6 : (⟨1, ![64]⟩ : Shape).Idx → EReal) (n : Fin 100000) : Fin 64 → EReal :=
  rowT (Wof a2) (bof a3) (Wof a4) (Wof a5) (bof a6) (fun d => a0 (ix2 n d)) (fun k d => a1 (ix3 n k d))

/-- The global pooling: the supremum over all nodes, as a 1 × 64 row. -/
def pooledAll (a0 : (⟨2, ![100000, 64]⟩ : Shape).Idx → EReal) (a1 : (⟨3, ![100000, 32, 64]⟩ : Shape).Idx → EReal)
    (a2 : (⟨2, ![64, 64]⟩ : Shape).Idx → EReal) (a3 : (⟨1, ![64]⟩ : Shape).Idx → EReal)
    (a4 a5 : (⟨2, ![64, 64]⟩ : Shape).Idx → EReal) (a6 : (⟨1, ![64]⟩ : Shape).Idx → EReal) :
    (⟨2, ![1, 64]⟩ : Shape).Idx → EReal :=
  fun i => ⨆ n : Fin 100000, nodeT a0 a1 a2 a3 a4 a5 a6 n (i 1)

end Cert.Layer

end
-- ==== Proof.LibConcatPair.lean ====
/-
  Two arrays laid side by side, read at an index.

  A concatenation of two pieces along an axis reads, at an index whose coordinate on that axis is `k`, the first piece at
  `k` when `k` is below the first piece's extent `a`, and otherwise the second piece at `k - a`; the other coordinates pass
  through. Stated here for the two layouts a fused pair of weight matrices and a fused pair of bias vectors have:
  matrices `[n, a]` and `[n, b]` joined along their columns into `[n, c]`, and vectors `[a]` and `[b]` joined into `[c]`.
  (`c = a + b` is part of the hypothesis `h`; the statements never need it spelt out.)
-/
import Idealize.ShloMosaic.Lib.ValueIdx
import Idealize.ShloMosaic.Lib.Pipeline.Value

namespace Idealize.ShloMosaic.ConcatPair

open Idealize.ShloMosaic Idealize.ShloMosaic.ValueIdx

variable {α : Type}

/-- Columns `[0, a)` of `[u | v]` are `u`'s. -/
theorem cols_left {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin a) (hq : q.val = k.val) :
    concatenate (⟨2, ![n, c]⟩ : Shape) 1 [⟨⟨2, ![n, a]⟩, u⟩, ⟨⟨2, ![n, b]⟩, v⟩] h (ix2 p k) = u (ix2 p q) :=
  concatenate_pair_apply_left 1 u v h (ix2 p k) rfl (ix2 p q) (fun d => by
    match d with
    | ⟨0, _⟩ => rfl
    | ⟨1, _⟩ => exact hq)

/-- Columns `[a, a + b)` of `[u | v]` are `v`'s, shifted by `a`. -/
theorem cols_right {n a b c : ℕ} (u : (⟨2, ![n, a]⟩ : Shape).Idx → α) (v : (⟨2, ![n, b]⟩ : Shape).Idx → α)
    (h : Shape.Concatenates [(⟨2, ![n, a]⟩ : Shape), ⟨2, ![n, b]⟩] ⟨2, ![n, c]⟩ 1)
    (p : Fin n) (k : Fin c) (q : Fin b) (hq : q.val + a = k.val) :
    concatenate (⟨2, ![n, c]⟩ : Shape) 1 [⟨⟨2, ![n, a]⟩, u⟩, ⟨⟨2, ![n, b]⟩, v⟩] h (ix2 p k) = v (ix2 p q) :=
  concatenate_pair_apply_right 1 u v h (ix2 p k) rfl rfl (ix2 p q) (fun d hd => by
    match d with
    | ⟨0, _⟩ => rfl
    | ⟨1, _⟩ => exact absurd rfl hd) hq

/-- Entries `[0, a)` of the joined vector are `u`'s. -/
theorem vec_left {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin a) (hq : q.val = k.val) :
    concatenate (⟨1, ![c]⟩ : Shape) 0 [⟨⟨1, ![a]⟩, u⟩, ⟨⟨1, ![b]⟩, v⟩] h (ix1 k) = u (ix1 q) :=
  concatenate_pair_apply_left 0 u v h (ix1 k) rfl (ix1 q) (fun d => by
    match d with
    | ⟨0, _⟩ => exact hq)

/-- Entries `[a, a + b)` of the joined vector are `v`'s, shifted by `a`. -/
theorem vec_right {a b c : ℕ} (u : (⟨1, ![a]⟩ : Shape).Idx → α) (v : (⟨1, ![b]⟩ : Shape).Idx → α)
    (h : Shape.Concatenates [(⟨1, ![a]⟩ : Shape), ⟨1, ![b]⟩] ⟨1, ![c]⟩ 0)
    (k : Fin c) (q : Fin b) (hq : q.val + a = k.val) :
    concatenate (⟨1, ![c]⟩ : Shape) 0 [⟨⟨1, ![a]⟩, u⟩, ⟨⟨1, ![b]⟩, v⟩] h (ix1 k) = v (ix1 q) :=
  concatenate_pair_apply_right 0 u v h (ix1 k) rfl rfl (ix1 q) (fun d hd => by
    match d with
    | ⟨0, _⟩ => exact absurd rfl hd) hq

end Idealize.ShloMosaic.ConcatPair
-- ==== Proof.LibStackedRows.lean ====
/-
  Two matrices stacked one above the other, read at an index.

  The concatenation of an `[a, n]` matrix `u` and a `[b, n]` matrix `v` along their rows is the `[c, n]` matrix whose rows
  `0 … a − 1` are `u`'s and whose rows `a … a + b − 1` are `v`'s, in order; the column passes through. (`c = a + b` is part
  of the hypothesis `h`; the statements never need it spelt out.)
-/
import Idealize.ShloMosaic.Lib.ValueIdx
import Idealize.ShloMosaic.Lib.Pipeline.Value

namespace Idealize.ShloMosaic.StackedRows

open Idealize.ShloMosaic Idealize.ShloMosaic.ValueIdx

variable {α : Type}

/-- Rows `[0, a)` of `u` stacked on `v` are `u`'s. -/
theorem rows_top {a b c n : ℕ} (u : (⟨2, ![a, n]⟩ : Shape).Idx → α) (v : (⟨2, ![b, n]⟩ : Shape).Idx → α)
    (h : Shape.Concatenates [(⟨2, ![a, n]⟩ : Shape), ⟨2, ![b, n]⟩] ⟨2, ![c, n]⟩ 0)
    (r : Fin c) (k : Fin n) (p : Fin a) (hp : p.val = r.val) :
    concatenate (⟨2, ![c, n]⟩ : Shape) 0 [⟨⟨2, ![a, n]⟩, u⟩, ⟨⟨2, ![b, n]⟩, v⟩] h (ix2 r k) = u (ix2 p k) :=
  concatenate_pair_apply_left 0 u v h (ix2 r k) rfl (ix2 p k) (fun d => by
    match d with
    | ⟨0, _⟩ => exact hp
    | ⟨1, _⟩ => rfl)

/-- Rows `[a, a + b)` of `u` stacked on `v` are `v`'s, shifted by `a`. -/
theorem rows_bottom {a b c n : ℕ} (u : (⟨2, ![a, n]⟩ : Shape).Idx → α) (v : (⟨2, ![b, n]⟩ : Shape).Idx → α)
    (h : Shape.Concatenates [(⟨2, ![a, n]⟩ : Shape), ⟨2, ![b, n]⟩] ⟨2, ![c, n]⟩ 0)
    (r : Fin c) (k : Fin n) (p : Fin b) (hp : p.val + a = r.val) :
    concatenate (⟨2, ![c, n]⟩ : Shape) 0 [⟨⟨2, ![a, n]⟩, u⟩, ⟨⟨2, ![b, n]⟩, v⟩] h (ix2 r k) = v (ix2 p k) :=
  concatenate_pair_apply_right 0 u v h (ix2 r k) rfl rfl (ix2 p k) (fun d hd => by
    match d with
    | ⟨0, _⟩ => exact absurd rfl hd
    | ⟨1, _⟩ => rfl) hp

end Idealize.ShloMosaic.StackedRows
-- ==== Proof.KernelArrays.lean ====
/-
  From the grid steps to the kernel's output array.

  The region's operands as the host lines before it leave them: the neighbour array recast so that neighbours 2j and
  2j+1 of a node lie side by side in one 128-long row; the three weight matrices transposed; the first bias as a
  1 × 64 row; the 128 × 128 matrix with the transposed first weight in its two diagonal blocks and zero elsewhere, and
  the first bias repeated as a 1 × 128 row. Grid step t stages rows 800 t … 800 t + 799 of the node and neighbour
  arrays and all of every other operand, and writes block t of the 125 × 8 × 64 output. So the output array holds, at
  (b, s, o), the supremum over the 800 nodes of block b of the row function at column o.
-/
import proofs.«121091_j19258633356195_2_alg».proof.Proof.Gen.KernelIdeal.Frame
import proofs.«121091_j19258633356195_2_alg».proof.Proof.BlockValue
import proofs.«121091_j19258633356195_2_alg».proof.Proof.Nodes
import proofs.«121091_j19258633356195_2_alg».proof.Proof.LibConcatPair
import proofs.«121091_j19258633356195_2_alg».proof.Proof.LibStackedRows
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx Cert.Layer

variable (m : (ℓ : Loc nD τ sig) → Buf (Elt Ideal) ℓ) (ρ : Dev nD → PrngReg)

/-! ## The operands as the region finds them -/

theorem pre_v0 (c : Dev nD) : (V m c main_v0 : S100000x16x128.Idx → EReal)
    = shapeCast S100000x16x128 (m ((c : Thread nD τ).loc main_arg1)) shapeCasts_S100000x32x64_S100000x16x128 := by
  show StableHlo.after hostOps0 (fun b => m (c, b)) (Proc.devRef .tc main_v0) = _
  after_results <;> rfl

theorem pre_v1 (c : Dev nD) : (V m c main_v1 : S64x64.Idx → EReal)
    = transpose S64x64 [1, 0] (m ((c : Thread nD τ).loc main_arg2)) transposes_S64x64_S64x64_1_0 := by
  show StableHlo.after hostOps0 (fun b => m (c, b)) (Proc.devRef .tc main_v1) = _
  after_results <;> rfl

theorem pre_v9 (c : Dev nD) : (V m c main_v9 : S64x64.Idx → EReal)
    = transpose S64x64 [1, 0] (m ((c : Thread nD τ).loc main_arg4)) transposes_S64x64_S64x64_1_0 := by
  show StableHlo.after hostOps0 (fun b => m (c, b)) (Proc.devRef .tc main_v9) = _
  after_results <;> rfl

theorem pre_v10 (c : Dev nD) : (V m c main_v10 : S64x64.Idx → EReal)
    = transpose S64x64 [1, 0] (m ((c : Thread nD τ).loc main_arg5)) transposes_S64x64_S64x64_1_0 := by
  show StableHlo.after hostOps0 (fun b => m (c, b)) (Proc.devRef .tc main_v10) = _
  after_results <;> rfl

theorem pre_v8 (c : Dev nD) : (V m c main_v8 : S1x64.Idx → EReal)
    = shapeCast S1x64 (m ((c : Thread nD τ).loc main_arg3)) shapeCasts_S64_S1x64 := by
  show StableHlo.after hostOps0 (fun b => m (c, b)) (Proc.devRef .tc main_v8) = _
  after_results <;> rfl

theorem pre_v11 (c : Dev nD) : (V m c main_v11 : S1x64.Idx → EReal)
    = shapeCast S1x64 (m ((c : Thread nD τ).loc main_arg6)) shapeCasts_S64_S1x64 := by
  show StableHlo.after hostOps0 (fun b => m (c, b)) (Proc.devRef .tc main_v11) = _
  after_results <;> rfl

theorem pre_v7 (c : Dev nD) : (V m c main_v7 : S1x128.Idx → EReal)
    = shapeCast S1x128 (concatenate S128 0 [⟨S64, m ((c : Thread nD τ).loc main_arg3)⟩, ⟨S64, m ((c : Thread nD τ).loc main_arg3)⟩]
        concatenates_S64_S64_S128_d0) shapeCasts_S128_S1x128 := by
  show StableHlo.after hostOps0 (fun b => m (c, b)) (Proc.devRef .tc main_v7) = _
  after_results <;> rfl

/-- The zero block of the block-diagonal matrix. -/
def zeroBlock : S64x64.Idx → EReal := broadcastInDim S64x64 ![] bcast_S_S64x64 (constant (F := Ideal) S_ .f32 0x00000000#32)

theorem pre_v5 (c : Dev nD) : (V m c main_v5 : S128x128.Idx → EReal)
    = concatenate S128x128 0
        [⟨S64x128, concatenate S64x128 1 [⟨S64x64, transpose S64x64 [1, 0] (m ((c : Thread nD τ).loc main_arg2)) transposes_S64x64_S64x64_1_0⟩,
            ⟨S64x64, zeroBlock⟩] concatenates_S64x64_S64x64_S64x128_d1⟩,
         ⟨S64x128, concatenate S64x128 1 [⟨S64x64, zeroBlock⟩,
            ⟨S64x64, transpose S64x64 [1, 0] (m ((c : Thread nD τ).loc main_arg2)) transposes_S64x64_S64x64_1_0⟩] concatenates_S64x64_S64x64_S64x128_d1⟩]
        concatenates_S64x128_S64x128_S128x128_d0 := by
  show StableHlo.after hostOps0 (fun b => m (c, b)) (Proc.devRef .tc main_v5) = _
  after_results <;> rfl

theorem zeroBlock_apply (i : S64x64.Idx) : zeroBlock i = 0 := by
  unfold zeroBlock
  rw [broadcastInDim_apply _ bcast_S_S64x64 _ i ix0 (fun a => a.elim0)]
  exact Ideal.ofBits_zero_f32

/-! ## The index maps, decided over the 125 grid steps -/

theorem idx_facts : ∀ t : Fin cfg0.N,
    (win0_0.index t (0 : Fin 2) = t.val ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 3) = t.val ∧ win0_9.index t (1 : Fin 3) = 0 ∧ win0_9.index t (2 : Fin 3) = 0) :=
  (by decide +kernel : ∀ t : Fin grid0.N, _)

theorem node_lt (t : Fin cfg0.N) (r : Fin 800) : t.val * 800 + r.val < 100000 := by
  have ht : t.val < 125 := lt_of_lt_of_eq t.isLt N_0
  have hr := r.isLt
  omega

/-- The node of row r of block t. -/
def node (t : Fin cfg0.N) (r : Fin 800) : Fin 100000 := ⟨t.val * 800 + r.val, node_lt t r⟩

/-! ## Each window's block at a grid step -/

theorem blk0 (c : Dev nD) (t : Fin cfg0.N) (r : Fin 800) (d : Fin 64) :
    (iblk m c 0 t : Vec Ideal S800x64 .f32) (ix2 r d) = m ((c : Thread nD τ).loc main_arg0) (ix2 (node t r) d) := by
  obtain ⟨⟨e0, e1⟩, -⟩ := idx_facts t
  unfold iblk
  rw [View.read_apply]
  show V m c main_arg0 _ = _
  refine (congrFun (V_main_arg0 m c) _).trans (congrArg _ ?_)
  funext a; apply Fin.ext
  match a with
  | ⟨0, _⟩ => show win0_0.index t (0 : Fin 2) * 800 + 1 * r.val = t.val * 800 + r.val; rw [e0]; omega
  | ⟨1, _⟩ => show win0_0.index t (1 : Fin 2) * 64 + 1 * d.val = d.val; rw [e1]; omega

theorem blk1 (c : Dev nD) (t : Fin cfg0.N) (r : Fin 800) (j : Fin 16) (l : Fin 128) :
    (iblk m c 1 t : Vec Ideal S800x16x128 .f32) (ix3 r j l) = (V m c main_v0 : S100000x16x128.Idx → EReal) (ix3 (node t r) j l) := by
  obtain ⟨-, ⟨e0, e1, e2⟩, -⟩ := idx_facts t
  unfold iblk
  rw [View.read_apply]
  show V m c main_v0 _ = _
  refine congrArg _ ?_
  funext a; apply Fin.ext
  match a with
  | ⟨0, _⟩ => show win0_1.index t (0 : Fin 3) * 800 + 1 * r.val = t.val * 800 + r.val; rw [e0]; omega
  | ⟨1, _⟩ => show win0_1.index t (1 : Fin 3) * 16 + 1 * j.val = j.val; rw [e1]; omega
  | ⟨2, _⟩ => show win0_1.index t (2 : Fin 3) * 128 + 1 * l.val = l.val; rw [e2]; omega

theorem blk2 (c : Dev nD) (t : Fin cfg0.N) (p : Fin 64) (q : Fin 64) :
    (iblk m c 2 t : Vec Ideal S64x64 .f32) (ix2 p q) = (V m c main_v1 : S64x64.Idx → EReal) (ix2 p q) := by
  obtain ⟨-, -, ⟨e0, e1⟩, -⟩ := idx_facts t
  unfold iblk
  rw [View.read_apply]
  show V m c main_v1 _ = _
  refine congrArg _ ?_
  funext a; apply Fin.ext
  match a with
  | ⟨0, _⟩ => show win0_2.index t (0 : Fin 2) * 64 + 1 * p.val = p.val; rw [e0]; omega
  | ⟨1, _⟩ => show win0_2.index t (1 : Fin 2) * 64 + 1 * q.val = q.val; rw [e1]; omega

theorem blk3 (c : Dev nD) (t : Fin cfg0.N) (p : Fin 1) (q : Fin 64) :
    (iblk m c 3 t : Vec Ideal S1x64 .f32) (ix2 p q) = (V m c main_v8 : S1x64.Idx → EReal) (ix2 p q) := by
  obtain ⟨-, -, -, ⟨e0, e1⟩, -⟩ := idx_facts t
  unfold iblk
  rw [View.read_apply]
  show V m c main_v8 _ = _
  refine congrArg _ ?_
  funext a; apply Fin.ext
  match a with
  | ⟨0, _⟩ => show win0_3.index t (0 : Fin 2) * 1 + 1 * p.val = p.val; rw [e0]; omega
  | ⟨1, _⟩ => show win0_3.index t (1 : Fin 2) * 64 + 1 * q.val = q.val; rw [e1]; omega

theorem blk4 (c : Dev nD) (t : Fin cfg0.N) (p : Fin 128) (q : Fin 128) :
    (iblk m c 4 t : Vec Ideal S128x128 .f32) (ix2 p q) = (V m c main_v5 : S128x128.Idx → EReal) (ix2 p q) := by
  obtain ⟨-, -, -, -, ⟨e0, e1⟩, -⟩ := idx_facts t
  unfold iblk
  rw [View.read_apply]
  show V m c main_v5 _ = _
  refine congrArg _ ?_
  funext a; apply Fin.ext
  match a with
  | ⟨0, _⟩ => show win0_4.index t (0 : Fin 2) * 128 + 1 * p.val = p.val; rw [e0]; omega
  | ⟨1, _⟩ => show win0_4.index t (1 : Fin 2) * 128 + 1 * q.val = q.val; rw [e1]; omega

theorem blk5 (c : Dev nD) (t : Fin cfg0.N) (p : Fin 1) (q : Fin 128) :
    (iblk m c 5 t : Vec Ideal S1x128 .f32) (ix2 p q) = (V m c main_v7 : S1x128.Idx → EReal) (ix2 p q) := by
  obtain ⟨-, -, -, -, -, ⟨e0, e1⟩, -⟩ := idx_facts t
  unfold iblk
  rw [View.read_apply]
  show V m c main_v7 _ = _
  refine congrArg _ ?_
  funext a; apply Fin.ext
  match a with
  | ⟨0, _⟩ => show win0_5.index t (0 : Fin 2) * 1 + 1 * p.val = p.val; rw [e0]; omega
  | ⟨1, _⟩ => show win0_5.index t (1 : Fin 2) * 128 + 1 * q.val = q.val; rw [e1]; omega

theorem blk6 (c : Dev nD) (t : Fin cfg0.N) (p : Fin 64) (q : Fin 64) :
    (iblk m c 6 t : Vec Ideal S64x64 .f32) (ix2 p q) = (V m c main_v9 : S64x64.Idx → EReal) (ix2 p q) := by
  obtain ⟨-, -, -, -, -, -, ⟨e0, e1⟩, -⟩ := idx_facts t
  unfold iblk
  rw [View.read_apply]
  show V m c main_v9 _ = _
  refine congrArg _ ?_
  funext a; apply Fin.ext
  match a with
  | ⟨0, _⟩ => show win0_6.index t (0 : Fin 2) * 64 + 1 * p.val = p.val; rw [e0]; omega
  | ⟨1, _⟩ => show win0_6.index t (1 : Fin 2) * 64 + 1 * q.val = q.val; rw [e1]; omega

theorem blk7 (c : Dev nD) (t : Fin cfg0.N) (p : Fin 64) (q : Fin 64) :
    (iblk m c 7 t : Vec Ideal S64x64 .f32) (ix2 p q) = (V m c main_v10 : S64x64.Idx → EReal) (ix2 p q) := by
  obtain ⟨-, -, -, -, -, -, -, ⟨e0, e1⟩, -⟩ := idx_facts t
  unfold iblk
  rw [View.read_apply]
  show V m c main_v10 _ = _
  refine congrArg _ ?_
  funext a; apply Fin.ext
  match a with
  | ⟨0, _⟩ => show win0_7.index t (0 : Fin 2) * 64 + 1 * p.val = p.val; rw [e0]; omega
  | ⟨1, _⟩ => show win0_7.index t (1 : Fin 2) * 64 + 1 * q.val = q.val; rw [e1]; omega

theorem blk8 (c : Dev nD) (t : Fin cfg0.N) (p : Fin 1) (q : Fin 64) :
    (iblk m c 8 t : Vec Ideal S1x64 .f32) (ix2 p q) = (V m c main_v11 : S1x64.Idx → EReal) (ix2 p q) := by
  obtain ⟨-, -, -, -, -, -, -, -, ⟨e0, e1⟩, -⟩ := idx_facts t
  unfold iblk
  rw [View.read_apply]
  show V m c main_v11 _ = _
  refine congrArg _ ?_
  funext a; apply Fin.ext
  match a with
  | ⟨0, _⟩ => show win0_8.index t (0 : Fin 2) * 1 + 1 * p.val = p.val; rw [e0]; omega
  | ⟨1, _⟩ => show win0_8.index t (1 : Fin 2) * 64 + 1 * q.val = q.val; rw [e1]; omega

/-! ## The operands at an index, in the layer's terms -/

theorem op_x1_lo (c : Dev nD) (t : Fin cfg0.N) (r : Fin 800) (j : Fin 16) (d : Fin 64) :
    (iblk m c 1 t : Vec Ideal S800x16x128 .f32) (ix3 r j (lo d)) = (m ((c : Thread nD τ).loc main_arg1)) (ix3 (node t r) (nb j 0) d) := by
  rw [blk1, pre_v0]
  refine shapeCast_apply _ _ _ _ ?_
  show (Shape.rowMajor (⟨3, ![100000, 32, 64]⟩ : Shape) (ix3 (node t r) (nb j 0) d)).val
    = (Shape.rowMajor (⟨3, ![100000, 16, 128]⟩ : Shape) (ix3 (node t r) j (lo d))).val
  rw [Shape.rowMajor_val_three, Shape.rowMajor_val_three]
  show ((node t r).val * 32 + (j.val * 2 + 0)) * 64 + d.val = ((node t r).val * 16 + j.val) * 128 + d.val
  omega

theorem op_x1_hi (c : Dev nD) (t : Fin cfg0.N) (r : Fin 800) (j : Fin 16) (d : Fin 64) :
    (iblk m c 1 t : Vec Ideal S800x16x128 .f32) (ix3 r j (hi d)) = (m ((c : Thread nD τ).loc main_arg1)) (ix3 (node t r) (nb j 1) d) := by
  rw [blk1, pre_v0]
  refine shapeCast_apply _ _ _ _ ?_
  show (Shape.rowMajor (⟨3, ![100000, 32, 64]⟩ : Shape) (ix3 (node t r) (nb j 1) d)).val
    = (Shape.rowMajor (⟨3, ![100000, 16, 128]⟩ : Shape) (ix3 (node t r) j (hi d))).val
  rw [Shape.rowMajor_val_three, Shape.rowMajor_val_three]
  show ((node t r).val * 32 + (j.val * 2 + 1)) * 64 + d.val = ((node t r).val * 16 + j.val) * 128 + (64 + d.val)
  omega

theorem op_x2 (c : Dev nD) (t : Fin cfg0.N) (d o : Fin 64) :
    (iblk m c 2 t : Vec Ideal S64x64 .f32) (ix2 d o) = (m ((c : Thread nD τ).loc main_arg2)) (ix2 o d) := by
  rw [blk2, pre_v1]
  exact transpose_ix2_apply _ _ d o

theorem op_x6 (c : Dev nD) (t : Fin cfg0.N) (d o : Fin 64) :
    (iblk m c 6 t : Vec Ideal S64x64 .f32) (ix2 d o) = (m ((c : Thread nD τ).loc main_arg4)) (ix2 o d) := by
  rw [blk6, pre_v9]
  exact transpose_ix2_apply _ _ d o

theorem op_x7 (c : Dev nD) (t : Fin cfg0.N) (d o : Fin 64) :
    (iblk m c 7 t : Vec Ideal S64x64 .f32) (ix2 d o) = (m ((c : Thread nD τ).loc main_arg5)) (ix2 o d) := by
  rw [blk7, pre_v10]
  exact transpose_ix2_apply _ _ d o

theorem op_x3 (c : Dev nD) (t : Fin cfg0.N) (o : Fin 64) :
    (iblk m c 3 t : Vec Ideal S1x64 .f32) (ix2 (0 : Fin 1) o) = (m ((c : Thread nD τ).loc main_arg3)) (ix1 o) := by
  rw [blk3, pre_v8]
  exact shapeCast_a_1a_apply _ _ 0 o

theorem op_x8 (c : Dev nD) (t : Fin cfg0.N) (o : Fin 64) :
    (iblk m c 8 t : Vec Ideal S1x64 .f32) (ix2 (0 : Fin 1) o) = (m ((c : Thread nD τ).loc main_arg6)) (ix1 o) := by
  rw [blk8, pre_v11]
  exact shapeCast_a_1a_apply _ _ 0 o

theorem op_x4_ll (c : Dev nD) (t : Fin cfg0.N) (d o : Fin 64) :
    (iblk m c 4 t : Vec Ideal S128x128 .f32) (ix2 (lo d) (lo o)) = (m ((c : Thread nD τ).loc main_arg2)) (ix2 o d) := by
  rw [blk4, pre_v5, StackedRows.rows_top _ _ _ (lo d) (lo o) d rfl, ConcatPair.cols_left _ _ _ d (lo o) o rfl]
  exact transpose_ix2_apply _ _ d o

theorem op_x4_lh (c : Dev nD) (t : Fin cfg0.N) (d o : Fin 64) :
    (iblk m c 4 t : Vec Ideal S128x128 .f32) (ix2 (lo d) (hi o)) = (0 : EReal) := by
  rw [blk4, pre_v5, StackedRows.rows_top _ _ _ (lo d) (hi o) d rfl, ConcatPair.cols_right _ _ _ d (hi o) o (Nat.add_comm _ _)]
  exact zeroBlock_apply _

theorem op_x4_hl (c : Dev nD) (t : Fin cfg0.N) (d o : Fin 64) :
    (iblk m c 4 t : Vec Ideal S128x128 .f32) (ix2 (hi d) (lo o)) = (0 : EReal) := by
  rw [blk4, pre_v5, StackedRows.rows_bottom _ _ _ (hi d) (lo o) d (Nat.add_comm _ _), ConcatPair.cols_left _ _ _ d (lo o) o rfl]
  exact zeroBlock_apply _

theorem op_x4_hh (c : Dev nD) (t : Fin cfg0.N) (d o : Fin 64) :
    (iblk m c 4 t : Vec Ideal S128x128 .f32) (ix2 (hi d) (hi o)) = (m ((c : Thread nD τ).loc main_arg2)) (ix2 o d) := by
  rw [blk4, pre_v5, StackedRows.rows_bottom _ _ _ (hi d) (hi o) d (Nat.add_comm _ _),
    ConcatPair.cols_right _ _ _ d (hi o) o (Nat.add_comm _ _)]
  exact transpose_ix2_apply _ _ d o

theorem op_x5_lo (c : Dev nD) (t : Fin cfg0.N) (o : Fin 64) :
    (iblk m c 5 t : Vec Ideal S1x128 .f32) (ix2 (0 : Fin 1) (lo o)) = (m ((c : Thread nD τ).loc main_arg3)) (ix1 o) := by
  rw [blk5, pre_v7, shapeCast_a_1a_apply]
  exact ConcatPair.vec_left _ _ _ (lo o) o rfl

theorem op_x5_hi (c : Dev nD) (t : Fin cfg0.N) (o : Fin 64) :
    (iblk m c 5 t : Vec Ideal S1x128 .f32) (ix2 (0 : Fin 1) (hi o)) = (m ((c : Thread nD τ).loc main_arg3)) (ix1 o) := by
  rw [blk5, pre_v7, shapeCast_a_1a_apply]
  exact ConcatPair.vec_right _ _ _ (hi o) o (Nat.add_comm _ _)

/-! ## From the grid steps to the output array -/

/-- What the region leaves in its output array: at (b, s, o) the supremum over block b's 800 nodes. -/
def blockMaxima (c : Dev nD) : S125x8x64.Idx → EReal := fun i =>
  ⨆ r : Fin 800, nodeT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ⟨(i 0).val * 800 + r.val, by have h : (i 0).val < 125 := (i 0).isLt; have := r.isLt; omega⟩ (i 2)

theorem hz2 : (![0, 0] : Fin 2 → Nat) = fun _ => 0 := funext fun a => by fin_cases a <;> rfl
theorem hz3 : (![0, 0, 0] : Fin 3 → Nat) = fun _ => 0 := funext fun a => by fin_cases a <;> rfl

/-- What grid step t writes back is block t of blockMaxima. -/
theorem flushed_eq (c : Dev nD) (t : Fin cfg0.N) :
    (dats m 0 c).flushed 9 t = ((cfg0.win 9).blk t).view.read (Elt Ideal) (blockMaxima m c) := by
  show (cfg0.win 9).cut (grid0.coords t) ((dats m 0 c).after 9 t) = _
  rw [after0_9]
  unfold out0_9
  rw [View.canon_unit_zero hz3]
  simp only [View.ld_unit_zero (S := S64x64) hz2, View.ld_unit_zero (S := S1x64) hz2, View.ld_unit_zero (S := S800x64) hz2,
    View.ld_unit_zero (S := S128x128) hz2, View.ld_unit_zero (S := S1x128) hz2, View.ld_unit_zero (S := S800x16x128) hz3]
  obtain ⟨-, -, -, -, -, -, -, -, -, ⟨e0, e1, e2⟩⟩ := idx_facts t
  funext y
  obtain ⟨u, s, o, rfl⟩ : ∃ (u : Fin 1) (s : Fin 8) (o : Fin 64), y = ix3 u s o := ⟨y 0, y 1, y 2, eq_ix3 y⟩
  show k0_pay1 (F := Ideal) (k0_pay2 (iblk m c 2 t) (iblk m c 3 t) (iblk m c 0 t) (iblk m c 4 t) (iblk m c 5 t) (iblk m c 1 t) (iblk m c 6 t))
      (Scalar.ofBits .f32 0x00000000#32) (iblk m c 7 t) (iblk m c 8 t) (ix3 u s o)
    = blockMaxima m c (((cfg0.win 9).blk t).view.emb (ix3 u s o))
  refine (Block.block_value (iblk m c 0 t) (iblk m c 1 t) (iblk m c 2 t) (iblk m c 3 t) (iblk m c 4 t) (iblk m c 5 t) (iblk m c 6 t)
    (iblk m c 7 t) (iblk m c 8 t) (Wof (m ((c : Thread nD τ).loc main_arg2))) (bof (m ((c : Thread nD τ).loc main_arg3))) (Wof (m ((c : Thread nD τ).loc main_arg4))) (Wof (m ((c : Thread nD τ).loc main_arg5))) (bof (m ((c : Thread nD τ).loc main_arg6)))
    (fun r d => (m ((c : Thread nD τ).loc main_arg0)) (ix2 (node t r) d)) (fun r k d => (m ((c : Thread nD τ).loc main_arg1)) (ix3 (node t r) k d))
    (blk0 m c t) (op_x1_lo m c t) (op_x1_hi m c t) (op_x2 m c t) (op_x3 m c t) (op_x4_ll m c t) (op_x4_lh m c t) (op_x4_hl m c t)
    (op_x4_hh m c t) (op_x5_lo m c t) (op_x5_hi m c t) (op_x6 m c t) (op_x7 m c t) (op_x8 m c t) u s o).trans ?_
  unfold blockMaxima
  have h0 : ((((cfg0.win 9).blk t).view.emb (ix3 u s o)) 0).val = t.val := by
    show win0_9.index t (0 : Fin 3) * 1 + 1 * u.val = t.val
    have := u.isLt; rw [e0]; omega
  have h2 : (((cfg0.win 9).blk t).view.emb (ix3 u s o)) 2 = o := Fin.ext (by
    show win0_9.index t (2 : Fin 3) * 64 + 1 * o.val = o.val
    rw [e2]; omega)
  refine iSup_congr fun r => ?_
  rw [h2]
  exact congrArg (fun n => nodeT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n o) (Fin.ext (by
    show t.val * 800 + r.val = _ * 800 + r.val
    rw [h0]))

/-- An index of the output array is in step t's block iff each coordinate is in the block's range. -/
theorem mem_blk (t : Fin cfg0.N) (i : S125x8x64.Idx) :
    i ∈ ((cfg0.win 9).blk t).view.set ↔ ∀ a : Fin 3, win0_9.index t a * S1x8x64.size a ≤ (i a).val
      ∧ (i a).val < win0_9.index t a * S1x8x64.size a + S1x8x64.size a := by
  show i ∈ ((View.whole main_v12).slice (win0_9.rect t)).set ↔ _
  rw [View.set_slice_whole, Rect.mem_set_unit]
  exact Iff.rfl

/-- Row b of the output array is written by step b. -/
theorem cover (i : S125x8x64.Idx) : ∃ t : Fin cfg0.N, (cfg0.win 9).flush t = true ∧ i ∈ ((cfg0.win 9).blk t).view.set := by
  have h0 : (i 0).val < 125 := (i 0).isLt
  have h1 : (i 1).val < 8 := (i 1).isLt
  have h2 : (i 2).val < 64 := (i 2).isLt
  obtain ⟨t, ht⟩ : ∃ t : Fin cfg0.N, t.val = (i 0).val := ⟨⟨(i 0).val, lt_of_lt_of_eq h0 N_0.symm⟩, rfl⟩
  obtain ⟨-, -, -, -, -, -, -, -, -, ⟨e0, e1, e2⟩⟩ := idx_facts t
  refine ⟨t, flush0_9 t, ?_⟩
  rw [mem_blk]
  intro a
  match a with
  | ⟨0, _⟩ =>
    show win0_9.index t (0 : Fin 3) * 1 ≤ (i 0).val ∧ (i 0).val < win0_9.index t (0 : Fin 3) * 1 + 1
    rw [e0]; omega
  | ⟨1, _⟩ =>
    show win0_9.index t (1 : Fin 3) * 8 ≤ (i 1).val ∧ (i 1).val < win0_9.index t (1 : Fin 3) * 8 + 8
    rw [e1]; omega
  | ⟨2, _⟩ =>
    show win0_9.index t (2 : Fin 3) * 64 ≤ (i 2).val ∧ (i 2).val < win0_9.index t (2 : Fin 3) * 64 + 64
    rw [e2]; omega

/-- The output array after the region. -/
theorem final (c : Dev nD) : (dats m 0 c).arrAt 9 cfg0.N = blockMaxima m c :=
  (dats m 0 c).arrAt_eq_of_cover 9 (blockMaxima m c) (fun t _ => flushed_eq m c t) cover

end Cert.KernelIdeal.Arrays

end
-- ==== Proof.RefValue.lean ====
/-
  The reference program, stage by stage, on the extended reals.

  Read at a node n and a column o, the reference's stages are the pieces of Layer.lean applied to the argument
  arrays: the node's own image, its neighbours' images and their maximum, the embedding, the norm and the division,
  and finally the second affine map — once for node 0 and once for nodes 1 … 99999, joined by a maximum, which is
  the supremum over all nodes. Everything after that stage is a fixed function (tail) of the pooled row and the
  remaining five arguments.
-/
import proofs.«121091_j19258633356195_2_alg».proof.Proof.Gen.ReferenceIdeal.Read
import proofs.«121091_j19258633356195_2_alg».proof.Proof.Nodes
import proofs.«121091_j19258633356195_2_alg».proof.Proof.LibExtremeReduce
import Idealize.ShloMosaic.Lib.ValueIdx
import Idealize.ShloMosaic.PureOps.Ideal.Laws

noncomputable section

namespace Cert.ReferenceIdeal.Stages

open Cert.ReferenceIdeal Cert.ReferenceIdeal.Gen Cert.ReferenceIdeal.Read
open Idealize.ShloMosaic Idealize.ShloMosaic.ValueIdx Cert.Layer
open scoped BigOperators

local macro "idx1" : tactic => `(tactic| (funext a; apply Fin.ext; match a with | ⟨0, _⟩ => rfl))
local macro "idx2" : tactic => `(tactic| (funext a; apply Fin.ext; match a with | ⟨0, _⟩ => rfl | ⟨1, _⟩ => rfl))
local macro "idx3" : tactic => `(tactic| (funext a; apply Fin.ext; match a with | ⟨0, _⟩ => rfl | ⟨1, _⟩ => rfl | ⟨2, _⟩ => rfl))

variable (x0 : (⟨S100000x64, .f32⟩ : BufTy).Contents (Elt Ideal)) (x1 : (⟨S100000x32x64, .f32⟩ : BufTy).Contents (Elt Ideal))
  (x2 : (⟨S64x64, .f32⟩ : BufTy).Contents (Elt Ideal)) (x3 : (⟨S64, .f32⟩ : BufTy).Contents (Elt Ideal))
  (x4 x5 : (⟨S64x64, .f32⟩ : BufTy).Contents (Elt Ideal)) (x6 : (⟨S64, .f32⟩ : BufTy).Contents (Elt Ideal))

/-! ## The first layer, per node -/

/-- The node's own row through the first affine map and clamp. -/
theorem self_image (n : Fin 100000) (o : Fin 64) :
    val_main_v5 (F := Ideal) x0 x2 x3 (ix2 n o) = affRelu (Wof x2) (bof x3) (fun d => x0 (ix2 n d)) o := by
  have e1 : ∀ k : Fin 64, lidx_main_v1 (ix2 n o) k = ix2 n k := fun k => by idx2
  have e2 : ∀ k : Fin 64, idx_main_v0 (ridx_main_v1 (ix2 n o) k) = ix2 o k := fun k => by idx2
  have e3 : idx_main_v2 (idx_main_v3 (ix2 n o)) = ix1 o := by idx1
  simp only [val_main_v5_apply, val_main_v4_apply, val_main_v1_apply, val_main_v0_apply, val_main_v3_apply, val_main_v2_apply,
    val_main_call0_v0_apply, val_main_call0_cst_apply, e1, e2, e3, Ideal.maximumf_def, Ideal.addf_def, Ideal.ofBits_def,
    Ideal.ofBits_zero_f32]
  rfl

/-- A neighbour's row through the same map. -/
theorem nb_image (n : Fin 100000) (k : Fin 32) (o : Fin 64) :
    val_main_v10 (F := Ideal) x1 x2 x3 (ix3 n k o) = affRelu (Wof x2) (bof x3) (fun d => x1 (ix3 n k d)) o := by
  have e1 : ∀ d : Fin 64, lidx_main_v6 (ix3 n k o) d = ix3 n k d := fun d => by idx3
  have e2 : ∀ d : Fin 64, ridx_main_v6 (ix3 n k o) d = ix2 o d := fun d => by idx2
  have e3 : idx_main_v7 (idx_main_v8 (ix3 n k o)) = ix1 o := by idx1
  simp only [val_main_v10_apply, val_main_v9_apply, val_main_v6_apply, val_main_v8_apply, val_main_v7_apply,
    val_main_call1_v0_apply, val_main_call1_cst_apply, e1, e2, e3, Ideal.maximumf_def, Ideal.addf_def, Ideal.ofBits_def,
    Ideal.ofBits_zero_f32]
  rfl

theorem reduces_nb : S100000x32x64.Reduces [1] S100000x64 := by decide

/-- The maximum of the node's image and its neighbours' images. -/
theorem pooled_image (n : Fin 100000) (o : Fin 64) :
    val_main_v12 (F := Ideal) x0 x1 x2 x3 (ix2 n o)
      = pooled (Wof x2) (bof x3) (fun d => x0 (ix2 n d)) (fun k d => x1 (ix3 n k d)) o := by
  rw [val_main_v12_apply, self_image]
  unfold pooled
  refine congrArg (max _) ?_
  unfold val_main_v11 val_main_cst
  rw [ExtremeReduce.hostReduce_max_single _ reducesTo_S100000x32x64_S100000x64_d1 reduces_nb h_S_ (ix2 n o)]
  refine iSup_congr fun k => ?_
  have hl : reduces_nb.lift (ix2 n o) k = ix3 n k o := by idx3
  rw [hl]
  exact nb_image x1 x2 x3 n k o

/-- The embedding of the pooled row. -/
theorem embed_image (n : Fin 100000) (o : Fin 64) :
    val_main_v15 (F := Ideal) x0 x1 x2 x3 x4 (ix2 n o)
      = embed (Wof x4) (pooled (Wof x2) (bof x3) (fun d => x0 (ix2 n d)) (fun k d => x1 (ix3 n k d))) o := by
  have e1 : ∀ k : Fin 64, lidx_main_v14 (ix2 n o) k = ix2 n k := fun k => by idx2
  have e2 : ∀ k : Fin 64, idx_main_v13 (ridx_main_v14 (ix2 n o) k) = ix2 o k := fun k => by idx2
  simp only [val_main_v15_apply, val_main_v14_apply, val_main_v13_apply, val_main_call2_v0_apply, val_main_call2_cst_apply,
    e1, e2, pooled_image, Ideal.maximumf_def, Ideal.ofBits_def, Ideal.ofBits_zero_f32]
  rfl

/-- The norm of the embedded row. -/
theorem norm_image (n : Fin 100000) (u : Fin 1) :
    val_main_v19 (F := Ideal) x0 x1 x2 x3 x4 (ix2 n u)
      = norm2 (embed (Wof x4) (pooled (Wof x2) (bof x3) (fun d => x0 (ix2 n d)) (fun k d => x1 (ix3 n k d)))) := by
  have e1 : ∀ k : Fin 64, idx_main_v17 (idx_main_v18 (ix2 n u)) k = ix2 n k := fun k => by idx2
  simp only [val_main_v19_apply, val_main_v18_apply, val_main_v17_apply, val_main_v16_apply, e1, embed_image,
    Ideal.hostUnary_sqrt_def, Ideal.mulf_def]
  unfold norm2 val_main_cst_0
  show Ideal.sqrt (Ideal.ofBits .f32 0x00000000#32 + _) = _
  rw [Ideal.ofBits_zero_f32, zero_add]

/-- The embedded row divided by its norm. -/
theorem unit_image (n : Fin 100000) (o : Fin 64) :
    val_main_v24 (F := Ideal) x0 x1 x2 x3 x4 (ix2 n o)
      = unitize (embed (Wof x4) (pooled (Wof x2) (bof x3) (fun d => x0 (ix2 n d)) (fun k d => x1 (ix3 n k d)))) o := by
  have e1 : idx_main_v23 (ix2 n o) = ix2 n (0 : Fin 1) := by idx2
  simp only [val_main_v24_apply, val_main_v23_apply, val_main_v22_apply, val_main_v21_apply, val_main_v20_apply,
    val_main_call3_v1_apply, val_main_call3_v0_apply, e1, norm_image, embed_image, Ideal.hostDivf_def, Ideal.cmpf_def]
  unfold unitize val_main_cst_1 val_main_cst_2
  show Ideal.div _ (Scalar.select (Ideal.cmp .ogt _ (Ideal.ofBits .f32 0x00000000#32)) _ _) = _
  rw [Ideal.ofBits_zero_f32]
  rfl

/-! ## The second layer and the pooling over all nodes -/

/-- Node 0 through the second affine map. -/
theorem first_row (u : Fin 1) (o : Fin 64) :
    val_main_v30 (F := Ideal) x0 x1 x2 x3 x4 x5 x6 (ix2 u o) = nodeT x0 x1 x2 x3 x4 x5 x6 ⟨0, by decide⟩ o := by
  have e1 : ∀ k : Fin 64, idx_main_v25 (lidx_main_v27 (ix2 u o) k) = ix2 (⟨0, by decide⟩ : Fin 100000) k := fun k => by
    funext a; apply Fin.ext
    match a with
    | ⟨0, _⟩ => show u.val = 0; omega
    | ⟨1, _⟩ => rfl
  have e2 : ∀ k : Fin 64, idx_main_v26 (ridx_main_v27 (ix2 u o) k) = ix2 o k := fun k => by idx2
  have e3 : idx_main_v28 (ix2 u o) = ix1 o := by idx1
  simp only [val_main_v30_apply, val_main_v29_apply, val_main_v27_apply, val_main_v25_apply, val_main_v26_apply, val_main_v28_apply,
    val_main_call4_v0_apply, val_main_call4_cst_apply, e1, e2, e3, unit_image, Ideal.maximumf_def, Ideal.addf_def, Ideal.ofBits_def,
    Ideal.ofBits_zero_f32]
  rfl

/-- Node k + 1 through the second affine map. -/
theorem later_row (k : Fin 99999) (o : Fin 64) :
    val_main_v37 (F := Ideal) x0 x1 x2 x3 x4 x5 x6 (ix2 k o)
      = nodeT x0 x1 x2 x3 x4 x5 x6 ⟨k.val + 1, by have := k.isLt; omega⟩ o := by
  have e1 : ∀ d : Fin 64, idx_main_v31 (lidx_main_v33 (ix2 k o) d)
      = ix2 (⟨k.val + 1, by have := k.isLt; omega⟩ : Fin 100000) d := fun d => by
    funext a; apply Fin.ext
    match a with
    | ⟨0, _⟩ => show 1 + k.val = k.val + 1; omega
    | ⟨1, _⟩ => rfl
  have e2 : ∀ d : Fin 64, idx_main_v32 (ridx_main_v33 (ix2 k o) d) = ix2 o d := fun d => by idx2
  have e3 : idx_main_v34 (idx_main_v35 (ix2 k o)) = ix1 o := by idx1
  simp only [val_main_v37_apply, val_main_v36_apply, val_main_v33_apply, val_main_v31_apply, val_main_v32_apply, val_main_v35_apply,
    val_main_v34_apply, val_main_call5_v0_apply, val_main_call5_cst_apply, e1, e2, e3, unit_image, Ideal.maximumf_def, Ideal.addf_def,
    Ideal.ofBits_def, Ideal.ofBits_zero_f32]
  rfl

theorem reduces_rows : S99999x64.Reduces [0] S64 := by decide

/-- Node 0's row joined with the maximum over nodes 1 … 99999 is the supremum over all nodes. -/
theorem pooled_row : val_main_v40 (F := Ideal) x0 x1 x2 x3 x4 x5 x6 = pooledAll x0 x1 x2 x3 x4 x5 x6 := by
  funext i
  obtain ⟨u, o, rfl⟩ : ∃ (u : Fin 1) (o : Fin 64), i = ix2 u o := ⟨i 0, i 1, eq_ix2 i⟩
  have e1 : idx_main_v39 (ix2 u o) = ix1 o := by idx1
  rw [val_main_v40_apply, first_row, val_main_v39_apply, e1]
  unfold val_main_v38 val_main_cst_3
  rw [ExtremeReduce.hostReduce_max_single _ reducesTo_S99999x64_S64_d0 reduces_rows h_S_ (ix1 o)]
  show max _ _ = ⨆ n : Fin 100000, nodeT x0 x1 x2 x3 x4 x5 x6 n o
  refine Eq.trans (congrArg (max _) (iSup_congr fun (k : Fin 99999) => ?_))
    (iSup_head_tail (n := 99999) (fun n : Fin 100000 => nodeT x0 x1 x2 x3 x4 x5 x6 n o))
  have hl : reduces_rows.lift (ix1 o) k = ix2 k o := by idx2
  rw [hl]
  exact later_row x0 x1 x2 x3 x4 x5 x6 k o

/-! ## The last lines -/

/-- What the program computes from the pooled row p and its last five arguments: the second embedding and its
    division by the norm, the hidden layer of the regressor, and its output. -/
def tail (p : FVec Ideal S1x64 .f32) (x7 x8 : FVec Ideal S64x64 .f32) (x9 : FVec Ideal S64 .f32) (x10 : FVec Ideal S1x64 .f32)
    (x11 : FVec Ideal S1 .f32) : FVec Ideal S1x1 .f32 :=
  let e : FVec Ideal S1x64 .f32 :=
    maximumf (F := Ideal) (Host.dotGeneral (F := Ideal) dot_S1x64_S64x64_S1x64_1_0_0_1_n_n none p (transpose S64x64 [1, 0] x7 transposes_S64x64_S64x64_1_0))
      (broadcastInDim S1x64 ![] bcast_S_S1x64 (constant (F := Ideal) S_ .f32 0x00000000#32))
  let nr : FVec Ideal S1x1 .f32 :=
    Host.sqrt (F := Ideal) (broadcastInDim S1x1 ![0] bcast_S1_S1x1_0
      (Host.reduceAdd (F := Ideal) (mulf (F := Ideal) e e) (constant (F := Ideal) S_ .f32 0x00000000#32) reducesTo_S1x64_S1_d1 h_S_))
  let dn : FVec Ideal S1x1 .f32 :=
    select (cmpf (F := Ideal) .ogt nr (broadcastInDim S1x1 ![] bcast_S_S1x1 (constant (F := Ideal) S_ .f32 0x00000000#32))) nr
      (broadcastInDim S1x1 ![] bcast_S_S1x1 (id (constant (F := Ideal) S_ .f32 0x3F800000#32)))
  let h : FVec Ideal S1x64 .f32 :=
    maximumf (F := Ideal) (addf (F := Ideal) (Host.dotGeneral (F := Ideal) dot_S1x64_S64x64_S1x64_1_0_0_1_n_n none
        (Host.divf (F := Ideal) e (broadcastInDim S1x64 ![0, 1] bcast_S1x1_S1x64_0_1 dn)) (transpose S64x64 [1, 0] x8 transposes_S64x64_S64x64_1_0))
        (broadcastInDim S1x64 ![1] bcast_S64_S1x64_1 x9))
      (broadcastInDim S1x64 ![] bcast_S_S1x64 (constant (F := Ideal) S_ .f32 0x00000000#32))
  addf (F := Ideal) (Host.dotGeneral (F := Ideal) dot_S1x64_S64x1_S1x1_1_0_0_1_n_n none h (transpose S64x1 [1, 0] x10 transposes_S1x64_S64x1_1_0))
    (broadcastInDim S1x1 ![1] bcast_S1_S1x1_1 x11)

/-- The reference's result is the last lines applied to its pooled row. -/
theorem result_eq (x7 x8 : (⟨S64x64, .f32⟩ : BufTy).Contents (Elt Ideal)) (x9 : (⟨S64, .f32⟩ : BufTy).Contents (Elt Ideal))
    (x10 : (⟨S1x64, .f32⟩ : BufTy).Contents (Elt Ideal)) (x11 : (⟨S1, .f32⟩ : BufTy).Contents (Elt Ideal)) :
    val_main_v61 (F := Ideal) x0 x1 x2 x3 x4 x5 x6 x7 x8 x9 x10 x11
      = tail (val_main_v40 (F := Ideal) x0 x1 x2 x3 x4 x5 x6) x7 x8 x9 x10 x11 := rfl

end Cert.ReferenceIdeal.Stages

end
-- ==== Proof.KernelResult.lean ====
/-
  The kernel's result: the lines after the region, read on the extended reals.

  After the region the program takes sublane row 0 of every block of the output array, maximises over the 125
  blocks, and feeds the resulting 1 × 64 row to the same last lines as the reference. Row 0 of block b holds the
  supremum over block b's 800 nodes, so the maximum over blocks is the supremum over all 100000 nodes: the pooled
  row of Nodes.lean. The run of the whole program then ends with its result at the last lines of that row, and its
  twelve arguments unchanged.
-/
import proofs.«121091_j19258633356195_2_alg».proof.Proof.KernelArrays
import proofs.«121091_j19258633356195_2_alg».proof.Proof.RefValue
import proofs.«121091_j19258633356195_2_alg».proof.Proof.LibExtremeReduce

set_option maxRecDepth 16384

noncomputable section

namespace Cert.KernelIdeal.Result

open Cert.KernelIdeal Cert.KernelIdeal.Gen Cert.KernelIdeal.Arrays Idealize.ShloMosaic Idealize.ShloMosaic.TcCoe Idealize.SL.Sem
open Idealize.ShloMosaic.StableHlo
open Idealize.ShloMosaic.Pipeline (Dat)
open Idealize.ShloMosaic.ValueIdx Cert.Layer

variable (m : (ℓ : Loc nD τ sig) → Buf (Elt Ideal) ℓ) (ρ : Dev nD → PrngReg)

/-! ## What the lines after the region read -/

theorem tail_arr (c : Dev nD) :
    Pipeline.withArrays (cfgs 0).spec c (V0 m c) (fun w => (dats m 0 c).arrAt w (cfgs 0).N) (Proc.devRef .tc main_v12)
      = blockMaxima m c :=
  (Pipeline.withArrays_arr spec0 launch0.win.arr_inj c _ _ 9).trans (final m c)

theorem tail_arg7 (c : Dev nD) :
    Pipeline.withArrays (cfgs 0).spec c (V0 m c) (fun w => (dats m 0 c).arrAt w (cfgs 0).N) (Proc.devRef .tc main_arg7)
      = m ((c : Thread nD τ).loc main_arg7) :=
  (Pipeline.withArrays_of_ne _ c (V0 m c) _ main_arg7 (by exact (by decide : ∀ w, Pipeline.arrRef spec0 w ≠ main_arg7))).trans
    (V_main_arg7 m c)

theorem tail_arg8 (c : Dev nD) :
    Pipeline.withArrays (cfgs 0).spec c (V0 m c) (fun w => (dats m 0 c).arrAt w (cfgs 0).N) (Proc.devRef .tc main_arg8)
      = m ((c : Thread nD τ).loc main_arg8) :=
  (Pipeline.withArrays_of_ne _ c (V0 m c) _ main_arg8 (by exact (by decide : ∀ w, Pipeline.arrRef spec0 w ≠ main_arg8))).trans
    (V_main_arg8 m c)

theorem tail_arg9 (c : Dev nD) :
    Pipeline.withArrays (cfgs 0).spec c (V0 m c) (fun w => (dats m 0 c).arrAt w (cfgs 0).N) (Proc.devRef .tc main_arg9)
      = m ((c : Thread nD τ).loc main_arg9) :=
  (Pipeline.withArrays_of_ne _ c (V0 m c) _ main_arg9 (by exact (by decide : ∀ w, Pipeline.arrRef spec0 w ≠ main_arg9))).trans
    (V_main_arg9 m c)

theorem tail_arg10 (c : Dev nD) :
    Pipeline.withArrays (cfgs 0).spec c (V0 m c) (fun w => (dats m 0 c).arrAt w (cfgs 0).N) (Proc.devRef .tc main_arg10)
      = m ((c : Thread nD τ).loc main_arg10) :=
  (Pipeline.withArrays_of_ne _ c (V0 m c) _ main_arg10 (by exact (by decide : ∀ w, Pipeline.arrRef spec0 w ≠ main_arg10))).trans
    (V_main_arg10 m c)

theorem tail_arg11 (c : Dev nD) :
    Pipeline.withArrays (cfgs 0).spec c (V0 m c) (fun w => (dats m 0 c).arrAt w (cfgs 0).N) (Proc.devRef .tc main_arg11)
      = m ((c : Thread nD τ).loc main_arg11) :=
  (Pipeline.withArrays_of_ne _ c (V0 m c) _ main_arg11 (by exact (by decide : ∀ w, Pipeline.arrRef spec0 w ≠ main_arg11))).trans
    (V_main_arg11 m c)

theorem reduces_blocks : S125x64.Reduces [0] S64 := by decide

/-- Row 0 of every block, maximised over the blocks, is the pooled row. -/
theorem pooled_eq (c : Dev nD) :
    broadcastInDim S1x64 ![1] bcast_S64_S1x64_1
      (Host.reduce (FloatOps.maximumf (F := Ideal) (φ := .f32))
        (shapeCast S125x64 (extractStridedSlice S125x1x64 ![0, 0, 0] (blockMaxima m c) slices_S125x8x64_S125x1x64_0_0_0)
          shapeCasts_S125x1x64_S125x64)
        (constant (F := Ideal) S_ .f32 0xFF800000#32) reducesTo_S125x64_S64_d0 h_S_)
      = pooledAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨u, o, rfl⟩ : ∃ (u : Fin 1) (o : Fin 64), i = ix2 u o := ⟨i 0, i 1, eq_ix2 i⟩
  rw [broadcastInDim_apply _ bcast_S64_S1x64_1 _ (ix2 u o) (ix1 o) (fun a => match a with
    | ⟨0, _⟩ => by show o.val = if (64 : Nat) = 1 then 0 else o.val; rw [if_neg (by decide)])]
  rw [ExtremeReduce.hostReduce_max_single _ reducesTo_S125x64_S64_d0 reduces_blocks h_S_ (ix1 o)]
  unfold pooledAll
  show _ = ⨆ n : Fin 100000, nodeT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n o
  rw [iSup_blocks (show 100000 = 125 * 800 from rfl)
    (fun n : Fin 100000 => nodeT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n o)]
  refine iSup_congr fun (b : Fin 125) => ?_
  have hl : reduces_blocks.lift (ix1 o) b = ix2 b o := by
    funext a; apply Fin.ext
    match a with
    | ⟨0, _⟩ => rfl
    | ⟨1, _⟩ => rfl
  rw [hl, shapeCast_apply _ shapeCasts_S125x1x64_S125x64 (ix2 b o) (ix3 b (0 : Fin 1) o) (by
      rw [Shape.rowMajor_val_three, Shape.rowMajor_val_two]
      show (b.val * 1 + 0) * 64 + o.val = b.val * 64 + o.val
      omega),
    extractStridedSlice_apply _ _ slices_S125x8x64_S125x1x64_0_0_0 (ix3 b (0 : Fin 1) o) (ix3 b (0 : Fin 8) o) (fun a => by
      match a with
      | ⟨0, _⟩ => exact (Nat.zero_add _).symm
      | ⟨1, _⟩ => rfl
      | ⟨2, _⟩ => exact (Nat.zero_add _).symm)]
  rfl

/-! ## The result -/

/-- The lines after the region as one function of the region's output array and the last five arguments: row 0 of
    every block, the maximum over blocks, then the last lines. -/
def afterRegion (p : FVec Ideal S125x8x64 .f32) (a7 a8 : FVec Ideal S64x64 .f32) (a9 : FVec Ideal S64 .f32)
    (a10 : FVec Ideal S1x64 .f32) (a11 : FVec Ideal S1 .f32) : FVec Ideal S1x1 .f32 :=
  Cert.ReferenceIdeal.Stages.tail
    (broadcastInDim S1x64 ![1] bcast_S64_S1x64_1
      (Host.reduce (FloatOps.maximumf (F := Ideal) (φ := .f32))
        (shapeCast S125x64 (extractStridedSlice S125x1x64 ![0, 0, 0] p slices_S125x8x64_S125x1x64_0_0_0) shapeCasts_S125x1x64_S125x64)
        (constant (F := Ideal) S_ .f32 0xFF800000#32) reducesTo_S125x64_S64_d0 h_S_))
    a7 a8 a9 a10 a11

set_option maxHeartbeats 8000000 in
/-- Whatever the buffers hold when the region ends, the lines after it leave that function of them in the result buffer. -/
theorem after_lines (W : Valuation τ sig (Elt Ideal)) :
    StableHlo.after ([hostOps1, hostOps1_1, hostOps1_2, hostOps1_3, hostOps1_4, hostOps1_5, hostOps1_6] : List (List (HloOp τ sig (Elt Ideal)))).flatten
        W (Proc.devRef .tc main_v37)
      = afterRegion (W (Proc.devRef .tc main_v12)) (W (Proc.devRef .tc main_arg7)) (W (Proc.devRef .tc main_arg8))
          (W (Proc.devRef .tc main_arg9)) (W (Proc.devRef .tc main_arg10)) (W (Proc.devRef .tc main_arg11)) := by
  simp only [hostOps1, hostOps1_1, hostOps1_2, hostOps1_3, hostOps1_4, hostOps1_5, hostOps1_6, List.flatten_cons, List.flatten_nil,
    List.append_nil, List.cons_append, List.nil_append]
  after_results_simp <;> rfl

/-- The program's result buffer after its last line. -/
theorem result_eq (c : Dev nD) :
    Pipeline.afterTail₀ cfgs (dats m) 0 (V0 m) [hostOps1, hostOps1_1, hostOps1_2, hostOps1_3, hostOps1_4, hostOps1_5, hostOps1_6] c main_v37
      = Cert.ReferenceIdeal.Stages.tail (pooledAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
          (m ((c : Thread nD τ).loc main_arg7)) (m ((c : Thread nD τ).loc main_arg8)) (m ((c : Thread nD τ).loc main_arg9)) (m ((c : Thread nD τ).loc main_arg10)) (m ((c : Thread nD τ).loc main_arg11)) := by
  unfold Pipeline.afterTail₀
  refine (after_lines _).trans ?_
  rw [tail_arr m c, tail_arg7 m c, tail_arg8 m c, tail_arg9 m c, tail_arg10 m c, tail_arg11 m c]
  unfold afterRegion
  rw [pooled_eq m c]

/-- Every weakly fair execution of the kernel's program terminates with the result at the last lines of the pooled row
    and the arguments unchanged. -/
theorem run : θ_run defs (onTc (τ := τ) (main (F := Ideal))) ⟨m, fun _ => 0, ρ⟩ (fun r => ∀ c : Dev nD,
      r.2.mem ((c.tc : Thread nD τ).loc main_v37)
        = Cert.ReferenceIdeal.Stages.tail (pooledAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
            (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
      ((h c).2 main_v37 (Pipeline.mem_restRefs_of main_v37 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩) (run_main m ρ)

end Cert.KernelIdeal.Result

end
-- ==== Proof.lean ====
/-
  A pooling graph layer on a TPU kernel against its array-level reference, on the extended reals.

  Both programs compute, for each of 100000 nodes, a row function of the node's 64 features and its 32 neighbours'
  features (an affine map and clamp applied to the node and to every neighbour, their entrywise maximum, an embedding,
  a division by the Euclidean norm, a second affine map and clamp: Proof/Layer.lean), pool these rows by an entrywise
  supremum over all nodes (Proof/Nodes.lean), and pass the pooled row through the same last lines.

  The kernel reads the neighbours two to a 128-long row against a block-diagonal copy of the first weight matrix,
  which changes no inner product (the off-diagonal blocks are zero) and splits the maximum over 32 neighbours into
  one over 16 pairs and one over the two halves; it pools 800 nodes per grid step and the host then pools the 125
  steps (Proof/BlockValue.lean, Proof/KernelArrays.lean, Proof/KernelResult.lean). The reference pools node 0 and
  nodes 1 … 99999 separately and joins them (Proof/RefValue.lean). A supremum does not depend on how its index set is
  split, so the two pooled rows are one function of the arguments, and so are the results. No step uses that the
  inputs are finite.

  The three frames are the generated ones (the reference's is its generated run with the result dropped); the
  idealization rewrote nothing, so its conjunct is trivial.
-/
import proofs.«121091_j19258633356195_2_alg».proof.Defs
import proofs.«121091_j19258633356195_2_alg».proof.Proof.Gen.Kernel
import proofs.«121091_j19258633356195_2_alg».proof.Proof.Gen.Kernel.Skeleton
import proofs.«121091_j19258633356195_2_alg».proof.Proof.Gen.Kernel.Launch
import proofs.«121091_j19258633356195_2_alg».proof.Proof.Gen.Kernel.Points
import proofs.«121091_j19258633356195_2_alg».proof.Proof.Gen.Kernel.Frame
import proofs.«121091_j19258633356195_2_alg».proof.Proof.Gen.KernelIdeal
import proofs.«121091_j19258633356195_2_alg».proof.Proof.Gen.KernelIdeal.Skeleton
import proofs.«121091_j19258633356195_2_alg».proof.Proof.Gen.KernelIdeal.Launch
import proofs.«121091_j19258633356195_2_alg».proof.Proof.Gen.KernelIdeal.Points
import proofs.«121091_j19258633356195_2_alg».proof.Proof.Gen.KernelIdeal.Frame
import proofs.«121091_j19258633356195_2_alg».proof.Proof.Gen.ReferenceIdeal
import proofs.«121091_j19258633356195_2_alg».proof.Proof.Gen.ReferenceIdeal.Run
import proofs.«121091_j19258633356195_2_alg».proof.Proof.Gen.ReferenceIdeal.Read
import proofs.«121091_j19258633356195_2_alg».proof.Proof.Gen.Pre_finite_inputs
import proofs.«121091_j19258633356195_2_alg».proof.Proof.KernelResult
import proofs.«121091_j19258633356195_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the twelve arguments, both programs end with the last lines applied to the pooled row
    of those arguments. -/
theorem algebraic : Cert.algebraic_KernelIdeal_ReferenceIdeal := by
  intro m ρ m' ρ' _ hagree
  refine ⟨fun c => Cert.ReferenceIdeal.Stages.tail
      (Cert.Layer.pooledAll (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v61_eq, Cert.ReferenceIdeal.Stages.result_eq, Cert.ReferenceIdeal.Stages.pooled_row,
    h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
